-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x128 .f32) (main_arg8 : FVec F S2 .f32) (main_arg9 : FVec F S2x128 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S2x128 .f32) (main_arg8 : FVec F S2 .f32) (main_arg9 : FVec F S2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S2x128 .f32) (main_arg8 : FVec F S2 .f32) (main_arg9 : FVec F S2x128 .f32) (main_arg10 : IVec S1600000 32) (main_arg11 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S128x2 : Shape := ⟨2, ![128, 2]⟩
abbrev S1x2 : Shape := ⟨2, ![1, 2]⟩
abbrev S100000x2 : Shape := ⟨2, ![100000, 2]⟩
abbrev S5000x2 : Shape := ⟨2, ![5000, 2]⟩
abbrev S5000 : Shape := ⟨1, ![5000]⟩

abbrev nBuf : Space → Nat
  | .hbm => 99
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x128, .f32⟩
  | .hbm, ⟨8, _⟩ => ⟨S2, .f32⟩
  | .hbm, ⟨9, _⟩ => ⟨S2x128, .f32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .i32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .bf16⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .bf16⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S128x128, .f32⟩
  | .hbm, ⟨78, _⟩ => ⟨S128x128, .f32⟩
  | .hbm, ⟨79, _⟩ => ⟨S1x128, .f32⟩
  | .hbm, ⟨80, _⟩ => ⟨S100000x128, .bf16⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .bf16⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S128x2, .f32⟩
  | .hbm, ⟨96, _⟩ => ⟨S128x2, .f32⟩
  | .hbm, ⟨97, _⟩ => ⟨S1x2, .f32⟩
  | .hbm, ⟨98, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x1, .f32⟩
  | .local _ .vmem, ⟨8, _⟩ => ⟨S5000x1, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S5000x1, .f32⟩
  | .local _ .vmem, ⟨19, _⟩ => ⟨S5000x1, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S128x2, .f32⟩
  | .local _ .vmem, ⟨27, _⟩ => ⟨S1x2, .f32⟩
  | .local _ .vmem, ⟨28, _⟩ => ⟨S128x2, .f32⟩
  | .local _ .vmem, ⟨29, _⟩ => ⟨S5000x1, .f32⟩
  | .local _ .vmem, ⟨30, _⟩ => ⟨S5000x1, .f32⟩
  | .local _ .vmem, ⟨31, _⟩ => ⟨S5000x2, .f32⟩
  | .local _ .vmem, ⟨32, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1_0 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  gather_S1600000_S1600000x1_S1600000_n_0_n_n_0_1_1_wf : GatherDims.WF S1600000 S1600000x1 S1600000 [] [0] [] [0] [] 1 ![1]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x2.size a ≤ S100000x2.size a
  hwx2_6 : ∀ i : grid2.Coords, EltTy.bits .f32 = 32 ∨ (Rect.block (s := S100000x2) S5000x2.size (cc2_transform_6 i) (hinb2_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v52) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v67) S5000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x128, .f32⟩
  | .hbm, ⟨8, _⟩ => ⟨S2, .f32⟩
  | .hbm, ⟨9, _⟩ => ⟨S2x128, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S128x2, .f32⟩
  | .hbm, ⟨93, _⟩ => ⟨S100000x2, .f32⟩
  | .hbm, ⟨94, _⟩ => ⟨S1x2, .f32⟩
  | .hbm, ⟨95, _⟩ => ⟨S100000x2, .f32⟩
  | .hbm, ⟨96, _⟩ => ⟨S100000x2, .f32⟩
  | .hbm, ⟨97, _⟩ => ⟨S128x2, .f32⟩
  | .hbm, ⟨98, _⟩ => ⟨S100000x2, .f32⟩
  | .hbm, ⟨99, _⟩ => ⟨S100000x2, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x2, .f32⟩
  | .hbm, ⟨107, _⟩ => ⟨S100000x2, .f32⟩
  | .hbm, ⟨108, _⟩ => ⟨S100000x2, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x2, .f32⟩
  | .hbm, ⟨114, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_call2_cst_0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_cst_1 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_v71 : Ref sig .tc := ⟨.hbm, 114, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel's run with its result named.

  @main is seven segments: four stretches of host operations and three launches of the dense-layer body over
  twenty row tiles. Every weakly fair execution terminates without a fault, and the final memory is the
  last boundary's contents of a fold through the segments (`Gen.W7`): each stretch applies its operations'
  pure functions, each launch replaces its output array by what the tiles' write-backs leave. The statement
  below is the frame's, with one more conjunct: the result array `main_v67` ends at that fold's value.
-/
import proofs.«146305_j81870666596807_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last
    boundary's contents and the twelve argument arrays end as launched. -/
theorem run_result : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

/-- The result array's final contents are what the third launch's write-backs leave in its output window. -/
theorem W7_result (c : Dev nD) :
    W7 m ρ c (Proc.devRef .tc main_v67) = (dat2 (V6 m ρ) c).arrAt 6 cfg2.N :=
  W7_arr m ρ c 6

end Cert.KernelIdeal.KRun

end
-- ==== Proof.HostChains.lean ====
/-
  The host-side chains of the idealized kernel, named.

  The edges are sorted once by destination (a stable argsort); the two index tables are then read through that order.
  Per layer, the rows of the current node features are gathered at the (wrapped) source indices and summed into their
  destination rows; the in-degree is the same segment sum of ones, and its reciprocal (against a floor of one) scales
  the sums. Each function below is exactly the printed operations' composition, so that a buffer's contents after the
  host stretch is one of them applied to earlier buffers.
-/
import proofs.«146305_j81870666596807_2_alg».proof.KernelIdeal

noncomputable section

namespace Cert.KernelIdeal.Chains

open Cert.KernelIdeal Idealize.ShloMosaic

variable {F : FTy → Type} [FloatOps F] [Facts₀]

open Facts₀

/-- The stable argsort of the destination table: position `e` holds the original position of the edge sorted `e`-th. -/
def order (dst : (⟨S1600000, .i32⟩ : BufTy).Contents (Elt F)) : (⟨S1600000, .i32⟩ : BufTy).Contents (Elt F) :=
  (Host.sort2 S1600000 0 comparator_i32_i32_d0 dst (iotaInDim S1600000 32 0)).2

/-- A possibly negative position wrapped by the number of edges. -/
def wrapE (o : (⟨S1600000, .i32⟩ : BufTy).Contents (Elt F)) : (⟨S1600000, .i32⟩ : BufTy).Contents (Elt F) :=
  select (cmpi .slt o (broadcastInDim S1600000 ![] bcast_S_S1600000 (constantI S_ 32 0#32 : (⟨S_, .i32⟩ : BufTy).Contents (Elt F))))
    (addi o (broadcastInDim S1600000 ![] bcast_S_S1600000 (constantI S_ 32 1600000#32 : (⟨S_, .i32⟩ : BufTy).Contents (Elt F)))) o

/-- An index table read through an order of the edges. -/
def take1 (x o : (⟨S1600000, .i32⟩ : BufTy).Contents (Elt F)) : (⟨S1600000, .i32⟩ : BufTy).Contents (Elt F) :=
  Host.gather gather_S1600000_S1600000x1_S1600000_n_0_n_n_0_1_1 x
    (broadcastInDim S1600000x1 ![0] bcast_S1600000_S1600000x1_0 (wrapE (F := F) o) : (⟨S1600000x1, .i32⟩ : BufTy).Contents (Elt F))

/-- A possibly negative node index wrapped by the number of nodes. -/
def wrapN (s : (⟨S1600000, .i32⟩ : BufTy).Contents (Elt F)) : (⟨S1600000, .i32⟩ : BufTy).Contents (Elt F) :=
  select (cmpi .slt s (broadcastInDim S1600000 ![] bcast_S_S1600000 (constantI S_ 32 0#32 : (⟨S_, .i32⟩ : BufTy).Contents (Elt F))))
    (addi s (broadcastInDim S1600000 ![] bcast_S_S1600000 (constantI S_ 32 100000#32 : (⟨S_, .i32⟩ : BufTy).Contents (Elt F)))) s

/-- The node rows at the edges' sources: edge `e`'s row is row `src e` of `h`. -/
def rowsOf (h : (⟨S100000x128, .f32⟩ : BufTy).Contents (Elt F)) (s : (⟨S1600000, .i32⟩ : BufTy).Contents (Elt F)) :
    (⟨S1600000x128, .f32⟩ : BufTy).Contents (Elt F) :=
  Host.gather gather_S100000x128_S1600000x1_S1600000x128_1_0_n_n_0_1_1128 h
    (broadcastInDim S1600000x1 ![0] bcast_S1600000_S1600000x1_0 (wrapN (F := F) s) : (⟨S1600000x1, .i32⟩ : BufTy).Contents (Elt F))

/-- The same from node rows kept in the narrower float format, widened after the gather. -/
def rowsOfB (h : (⟨S100000x128, .bf16⟩ : BufTy).Contents (Elt F)) (s : (⟨S1600000, .i32⟩ : BufTy).Contents (Elt F)) :
    (⟨S1600000x128, .f32⟩ : BufTy).Contents (Elt F) :=
  extf .f32 (Host.gather gather_S100000x128_S1600000x1_S1600000x128_1_0_n_n_0_1_1128 h
    (broadcastInDim S1600000x1 ![0] bcast_S1600000_S1600000x1_0 (wrapN (F := F) s) : (⟨S1600000x1, .i32⟩ : BufTy).Contents (Elt F))) bitsLt_bf16_f32

/-- The segment sum of edge rows into their destination rows, from zero. -/
def segRows (d : (⟨S1600000, .i32⟩ : BufTy).Contents (Elt F)) (u : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 d : (⟨S1600000x1, .i32⟩ : BufTy).Contents (Elt F)) u

/-- The in-degree: the segment sum of a one per edge. -/
def degOf (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32 : (⟨S_, .f32⟩ : BufTy).Contents (Elt F)))
    (broadcastInDim S1600000x1 ![0] bcast_S1600000_S1600000x1_0 d : (⟨S1600000x1, .i32⟩ : BufTy).Contents (Elt F))
    (broadcastInDim S1600000 ![] bcast_S_S1600000 (constant S_ .f32 0x3F800000#32 : (⟨S_, .f32⟩ : BufTy).Contents (Elt F)))

/-- The reciprocal of the in-degree floored at one, as a column. -/
def invOf (d : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32 : (⟨S_, .f32⟩ : BufTy).Contents (Elt F)))
      (maximumf (degOf (F := F) d)
        (broadcastInDim S100000 ![] bcast_S_S100000 (constant S_ .f32 0x3F800000#32 : (⟨S_, .f32⟩ : BufTy).Contents (Elt F)))))

end Cert.KernelIdeal.Chains

end
-- ==== Proof.Fold.lean ====
/-
  What each launch finds in its operand arrays.

  The buffer contents at the seven segment boundaries are a fold from the launch memory. Read at one buffer, the fold
  walks back: a host operation's result buffer holds its function of its operands' contents, any other buffer what it
  held before; a launch leaves its output array at what the tiles wrote and every other buffer alone. So each operand
  of each launch is a named host chain of the argument arrays and of the previous launch's output.
-/
import proofs.«146305_j81870666596807_2_alg».proof.Proof.Gen.KernelIdeal.Frame
import proofs.«146305_j81870666596807_2_alg».proof.Proof.HostChains
import Idealize.ShloMosaic.Lib.StableHlo.Run

set_option maxRecDepth 16384

noncomputable section

namespace Cert.KernelIdeal.Fold

open Cert.KernelIdeal Cert.KernelIdeal.Gen Cert.KernelIdeal.Chains
open Idealize.ShloMosaic Idealize.ShloMosaic.TcCoe Idealize.ShloMosaic.StableHlo Idealize.SL.Sem
open Idealize.ShloMosaic.Pipeline (Dat Cfg Window)

variable {F : FTy → Type} [FloatOps F]
variable (m : (ℓ : Loc nD τ sig) → Buf (Elt F) ℓ) (ρ : Dev nD → PrngReg)

/-! ## Before the first launch -/

/-- The destination table read through the sort's order. -/
abbrev dstS (c : Dev nD) : (⟨S1600000, .i32⟩ : BufTy).Contents (Elt F) :=
  take1 (F := F) (m ((c : Thread nD τ).loc main_arg11)) (order (F := F) (m ((c : Thread nD τ).loc main_arg11)))
/-- The source table read through the same order. -/
abbrev srcS (c : Dev nD) : (⟨S1600000, .i32⟩ : BufTy).Contents (Elt F) :=
  take1 (F := F) (m ((c : Thread nD τ).loc main_arg10)) (order (F := F) (m ((c : Thread nD τ).loc main_arg11)))

theorem W2_dst (c : Dev nD) : W2 m ρ c (Proc.devRef .tc main_v7) = dstS m c := by
  after_results_simp <;> rfl

theorem W2_src (c : Dev nD) : W2 m ρ c (Proc.devRef .tc main_v14) = srcS m c := by
  after_results_simp <;> rfl

theorem W2_inv (c : Dev nD) : W2 m ρ c (Proc.devRef .tc main_v23) = invOf (F := F) (dstS m c) := by
  after_results_simp <;> rfl

/-- The first layer's neighbour sums: the input rows gathered at the sorted sources, summed at the sorted destinations. -/
theorem W2_agg (c : Dev nD) :
    W2 m ρ c (Proc.devRef .tc main_v33) = segRows (F := F) (dstS m c) (rowsOf (F := F) (m ((c : Thread nD τ).loc main_arg0)) (srcS m c)) := by
  after_results_simp <;> rfl

theorem W2_wl (c : Dev nD) : W2 m ρ c (Proc.devRef .tc main_v34) = transpose S128x128 [1, 0] (m ((c : Thread nD τ).loc main_arg1)) transposes_S128x128_S128x128_1_0 := by
  after_results_simp <;> rfl
theorem W2_wr (c : Dev nD) : W2 m ρ c (Proc.devRef .tc main_v35) = transpose S128x128 [1, 0] (m ((c : Thread nD τ).loc main_arg3)) transposes_S128x128_S128x128_1_0 := by
  after_results_simp <;> rfl
theorem W2_b (c : Dev nD) : W2 m ρ c (Proc.devRef .tc main_v36) = fun i => shapeCast S1x128 (m ((c : Thread nD τ).loc main_arg2)) shapeCasts_S128_S1x128 i := by
  after_results_simp <;> rfl
theorem W2_arg0 (c : Dev nD) : W2 m ρ c (Proc.devRef .tc main_arg0) = (m ((c : Thread nD τ).loc main_arg0)) := by
  after_results_simp <;> rfl
theorem W2_arg4 (c : Dev nD) : W2 m ρ c (Proc.devRef .tc main_arg4) = (m ((c : Thread nD τ).loc main_arg4)) := by
  after_results_simp <;> rfl
theorem W2_arg5 (c : Dev nD) : W2 m ρ c (Proc.devRef .tc main_arg5) = (m ((c : Thread nD τ).loc main_arg5)) := by
  after_results_simp <;> rfl
theorem W2_arg6 (c : Dev nD) : W2 m ρ c (Proc.devRef .tc main_arg6) = (m ((c : Thread nD τ).loc main_arg6)) := by
  after_results_simp <;> rfl
theorem W2_arg7 (c : Dev nD) : W2 m ρ c (Proc.devRef .tc main_arg7) = (m ((c : Thread nD τ).loc main_arg7)) := by
  after_results_simp <;> rfl
theorem W2_arg8 (c : Dev nD) : W2 m ρ c (Proc.devRef .tc main_arg8) = (m ((c : Thread nD τ).loc main_arg8)) := by
  after_results_simp <;> rfl
theorem W2_arg9 (c : Dev nD) : W2 m ρ c (Proc.devRef .tc main_arg9) = (m ((c : Thread nD τ).loc main_arg9)) := by
  after_results_simp <;> rfl

/-! ## Across the first launch, and before the second -/

/-- The first launch's output array. -/
abbrev H1 (c : Dev nD) := W3 m ρ c (Proc.devRef .tc main_v37)

theorem W3_dst (c : Dev nD) : W3 m ρ c (Proc.devRef .tc main_v7) = dstS m c := (W3_of_ne m ρ c main_v7 (by decide)).trans (W2_dst m ρ c)
theorem W3_src (c : Dev nD) : W3 m ρ c (Proc.devRef .tc main_v14) = srcS m c := (W3_of_ne m ρ c main_v14 (by decide)).trans (W2_src m ρ c)
theorem W3_inv (c : Dev nD) : W3 m ρ c (Proc.devRef .tc main_v23) = invOf (F := F) (dstS m c) :=
  ((W3_arr m ρ c 5).trans (((dat0 (V2 m ρ) c).arrAt_in 5 rfl _).trans (A_eq0 (V2 m ρ) c 5))).trans (W2_inv m ρ c)
theorem W3_arg4 (c : Dev nD) : W3 m ρ c (Proc.devRef .tc main_arg4) = (m ((c : Thread nD τ).loc main_arg4)) := (W3_of_ne m ρ c main_arg4 (by decide)).trans (W2_arg4 m ρ c)
theorem W3_arg5 (c : Dev nD) : W3 m ρ c (Proc.devRef .tc main_arg5) = (m ((c : Thread nD τ).loc main_arg5)) := (W3_of_ne m ρ c main_arg5 (by decide)).trans (W2_arg5 m ρ c)
theorem W3_arg6 (c : Dev nD) : W3 m ρ c (Proc.devRef .tc main_arg6) = (m ((c : Thread nD τ).loc main_arg6)) := (W3_of_ne m ρ c main_arg6 (by decide)).trans (W2_arg6 m ρ c)
theorem W3_arg7 (c : Dev nD) : W3 m ρ c (Proc.devRef .tc main_arg7) = (m ((c : Thread nD τ).loc main_arg7)) := (W3_of_ne m ρ c main_arg7 (by decide)).trans (W2_arg7 m ρ c)
theorem W3_arg8 (c : Dev nD) : W3 m ρ c (Proc.devRef .tc main_arg8) = (m ((c : Thread nD τ).loc main_arg8)) := (W3_of_ne m ρ c main_arg8 (by decide)).trans (W2_arg8 m ρ c)
theorem W3_arg9 (c : Dev nD) : W3 m ρ c (Proc.devRef .tc main_arg9) = (m ((c : Thread nD τ).loc main_arg9)) := (W3_of_ne m ρ c main_arg9 (by decide)).trans (W2_arg9 m ρ c)

theorem W4_agg (c : Dev nD) :
    W4 m ρ c (Proc.devRef .tc main_v48) = segRows (F := F) (dstS m c) (rowsOfB (F := F) (H1 m ρ c) (srcS m c)) := by
  after_results_simp
  rw [W3_dst, W3_src]
  rfl
theorem W4_h (c : Dev nD) : W4 m ρ c (Proc.devRef .tc main_v37) = H1 m ρ c := by
  after_results_simp
theorem W4_inv (c : Dev nD) : W4 m ρ c (Proc.devRef .tc main_v23) = invOf (F := F) (dstS m c) := by
  after_results_simp
  exact W3_inv m ρ c
theorem W4_wl (c : Dev nD) : W4 m ρ c (Proc.devRef .tc main_v49) = transpose S128x128 [1, 0] (m ((c : Thread nD τ).loc main_arg4)) transposes_S128x128_S128x128_1_0 := by
  after_results_simp
  rw [W3_arg4]
theorem W4_wr (c : Dev nD) : W4 m ρ c (Proc.devRef .tc main_v50) = transpose S128x128 [1, 0] (m ((c : Thread nD τ).loc main_arg6)) transposes_S128x128_S128x128_1_0 := by
  after_results_simp
  rw [W3_arg6]
theorem W4_b (c : Dev nD) : W4 m ρ c (Proc.devRef .tc main_v51) = fun i => shapeCast S1x128 (m ((c : Thread nD τ).loc main_arg5)) shapeCasts_S128_S1x128 i := by
  after_results_simp
  rw [W3_arg5]
  rfl
theorem W4_dst (c : Dev nD) : W4 m ρ c (Proc.devRef .tc main_v7) = dstS m c := by
  after_results_simp
  exact W3_dst m ρ c
theorem W4_src (c : Dev nD) : W4 m ρ c (Proc.devRef .tc main_v14) = srcS m c := by
  after_results_simp
  exact W3_src m ρ c
theorem W4_arg7 (c : Dev nD) : W4 m ρ c (Proc.devRef .tc main_arg7) = (m ((c : Thread nD τ).loc main_arg7)) := by
  after_results_simp
  exact W3_arg7 m ρ c
theorem W4_arg8 (c : Dev nD) : W4 m ρ c (Proc.devRef .tc main_arg8) = (m ((c : Thread nD τ).loc main_arg8)) := by
  after_results_simp
  exact W3_arg8 m ρ c
theorem W4_arg9 (c : Dev nD) : W4 m ρ c (Proc.devRef .tc main_arg9) = (m ((c : Thread nD τ).loc main_arg9)) := by
  after_results_simp
  exact W3_arg9 m ρ c

/-! ## Across the second launch, and before the third -/

/-- The second launch's output array. -/
abbrev H2 (c : Dev nD) := W5 m ρ c (Proc.devRef .tc main_v52)

theorem W5_dst (c : Dev nD) : W5 m ρ c (Proc.devRef .tc main_v7) = dstS m c := (W5_of_ne m ρ c main_v7 (by decide)).trans (W4_dst m ρ c)
theorem W5_src (c : Dev nD) : W5 m ρ c (Proc.devRef .tc main_v14) = srcS m c := (W5_of_ne m ρ c main_v14 (by decide)).trans (W4_src m ρ c)
theorem W5_inv (c : Dev nD) : W5 m ρ c (Proc.devRef .tc main_v23) = invOf (F := F) (dstS m c) :=
  ((W5_arr m ρ c 5).trans (((dat1 (V4 m ρ) c).arrAt_in 5 rfl _).trans (A_eq1 (V4 m ρ) c 5))).trans (W4_inv m ρ c)
theorem W5_arg7 (c : Dev nD) : W5 m ρ c (Proc.devRef .tc main_arg7) = (m ((c : Thread nD τ).loc main_arg7)) := (W5_of_ne m ρ c main_arg7 (by decide)).trans (W4_arg7 m ρ c)
theorem W5_arg8 (c : Dev nD) : W5 m ρ c (Proc.devRef .tc main_arg8) = (m ((c : Thread nD τ).loc main_arg8)) := (W5_of_ne m ρ c main_arg8 (by decide)).trans (W4_arg8 m ρ c)
theorem W5_arg9 (c : Dev nD) : W5 m ρ c (Proc.devRef .tc main_arg9) = (m ((c : Thread nD τ).loc main_arg9)) := (W5_of_ne m ρ c main_arg9 (by decide)).trans (W4_arg9 m ρ c)

theorem W6_agg (c : Dev nD) :
    W6 m ρ c (Proc.devRef .tc main_v63) = segRows (F := F) (dstS m c) (rowsOfB (F := F) (H2 m ρ c) (srcS m c)) := by
  after_results_simp
  rw [W5_dst, W5_src]
  rfl
theorem W6_h (c : Dev nD) : W6 m ρ c (Proc.devRef .tc main_v52) = H2 m ρ c := by
  after_results_simp
theorem W6_inv (c : Dev nD) : W6 m ρ c (Proc.devRef .tc main_v23) = invOf (F := F) (dstS m c) := by
  after_results_simp
  exact W5_inv m ρ c
theorem W6_wl (c : Dev nD) : W6 m ρ c (Proc.devRef .tc main_v64) = transpose S128x2 [1, 0] (m ((c : Thread nD τ).loc main_arg7)) transposes_S2x128_S128x2_1_0 := by
  after_results_simp
  rw [W5_arg7]
theorem W6_wr (c : Dev nD) : W6 m ρ c (Proc.devRef .tc main_v65) = transpose S128x2 [1, 0] (m ((c : Thread nD τ).loc main_arg9)) transposes_S2x128_S128x2_1_0 := by
  after_results_simp
  rw [W5_arg9]
theorem W6_b (c : Dev nD) : W6 m ρ c (Proc.devRef .tc main_v66) = fun i => shapeCast S1x2 (m ((c : Thread nD τ).loc main_arg8)) shapeCasts_S2_S1x2 i := by
  after_results_simp
  rw [W5_arg8]
  rfl

end Cert.KernelIdeal.Fold

end
-- ==== Proof.LibScatterReindex.lean ====
/-
  Reindexing an exact scatter-add, and what the landing place of an update and the operand index of a
  gather depend on.

  At the exact-real instance a scatter whose body adds is a genuine finite sum: every operand element
  plus the sum of the updates that land on it. Such a sum is invariant under a bijection of the update
  indices that respects where updates land: if the update at j under the new indices lands where the
  update at π j lands under the old ones, and carries the old update at π j, both sums run over
  families that π matches one to one. Where an update lands depends only on its start and its window
  coordinate on each operand axis; the operand index a gather reads depends only on the start, the
  batching coordinate and the offset coordinate on each operand axis.
-/
import Idealize.ShloMosaic.PureOps.Ideal

noncomputable section

open scoped BigOperators

namespace Idealize.ShloMosaic.ScatterReindex

open Idealize.ShloMosaic

/-- REINDEXING AN EXACT SCATTER-ADD. Let π be a bijection of the update index set. If the update
    at j under the new indices lands where the update at π j lands under the old ones, and the
    new update at j is the old update at π j, then the two exact scatter-adds agree: at every
    operand element the two sums run over families of updates that π matches one to one. -/
theorem hostScatterAdd_reindex {s si su : Shape} (d : ScatterDims s si su) {w : Nat} (π : su.Idx ≃ su.Idx)
    (x : s.Idx → EReal) (idx idxS : IVec si w) (upd updS : su.Idx → EReal)
    (hres : ∀ j, d.resultIdx? j idxS = d.resultIdx? (π j) idx) (hupd : ∀ j, updS j = upd (π j)) :
    Ideal.hostScatterAdd d x idxS updS = Ideal.hostScatterAdd d x idx upd := by
  funext i
  unfold Ideal.hostScatterAdd
  refine congrArg (x i + ·) ?_
  refine Finset.sum_equiv π ?_ ?_
  · intro j
    simp only [Finset.mem_filter, Finset.mem_univ, true_and]
    rw [hres j]
  · intro j _
    exact hupd j

/-- Where an update lands depends only on its start and its window coordinate on each operand axis. -/
theorem resultIdx?_congr {s si su : Shape} (d : ScatterDims s si su) {w : Nat} (j j' : su.Idx) (idx idx' : IVec si w)
    (hs : ∀ a, d.start j idx a = d.start j' idx' a) (hw : ∀ a, d.window j a = d.window j' a) :
    d.resultIdx? j idx = d.resultIdx? j' idx' := by
  unfold ScatterDims.resultIdx?
  by_cases h : ∀ a, 0 ≤ d.start j idx a + d.window j a ∧ d.start j idx a + d.window j a < s.size a
  · have h' : ∀ a, 0 ≤ d.start j' idx' a + d.window j' a ∧ d.start j' idx' a + d.window j' a < s.size a :=
      fun a => by rw [← hs a, ← hw a]; exact h a
    rw [dif_pos h, dif_pos h']
    refine congrArg some ?_
    funext a
    refine Fin.ext ?_
    show (d.start j idx a + d.window j a).toNat = (d.start j' idx' a + d.window j' a).toNat
    rw [hs a, hw a]
  · have h' : ¬ ∀ a, 0 ≤ d.start j' idx' a + d.window j' a ∧ d.start j' idx' a + d.window j' a < s.size a :=
      fun h' => h fun a => by rw [hs a, hw a]; exact h' a
    rw [dif_neg h, dif_neg h']

/-- The operand index a gather reads depends only on the start, the batching coordinate and the
    offset coordinate on each operand axis. -/
theorem operandIdx_congr {s si t : Shape} (d : GatherDims s si t) {w : Nat} (j j' : t.Idx) (idx idx' : IVec si w)
    (hs : ∀ a, d.start j idx a = d.start j' idx' a) (hb : ∀ a, d.batchCoord j a = d.batchCoord j' a)
    (ho : ∀ a, d.offCoord j a = d.offCoord j' a) :
    d.operandIdx j idx = d.operandIdx j' idx' := by
  funext a
  refine Fin.ext ?_
  show d.start j idx a + d.batchCoord j a + d.offCoord j a = d.start j' idx' a + d.batchCoord j' a + d.offCoord j' a
  rw [hs a, hb a, ho a]

end Idealize.ShloMosaic.ScatterReindex

end
-- ==== Proof.SegmentReindex.lean ====
/-
  A segment sum (a scatter whose body adds: every update is added into the operand row that its
  destination index names) and a row gather do not depend on the order in which the edges are
  listed. If the 1,600,000 edges are listed through a permutation σ of their positions, the
  destination of the edge at position e being the old destination at position σ e and its update
  row the old update row at σ e, then every operand row still receives the same family of
  updates, so the exact sums agree; and the gathered row at position e is the old gathered row
  at position σ e.
-/
import proofs.«146305_j81870666596807_2_alg».proof.KernelIdeal
import proofs.«146305_j81870666596807_2_alg».proof.Proof.LibScatterReindex
import Idealize.ShloMosaic.PureOps.Ideal
import Idealize.ShloMosaic.Lib.ValueIdx

noncomputable section

open scoped BigOperators
open Idealize.ShloMosaic Idealize.ShloMosaic.ValueIdx Idealize.ShloMosaic.ScatterReindex

namespace Cert.KernelIdeal.SegmentReindex

/-! ## The program's three records, with the edges listed through a permutation of their positions -/

variable [Facts₀] (σ : Equiv.Perm (Fin 1600000))

local notation "dRows" => scatter_S100000x128_S1600000x1_S1600000x128_1_0_0_1
local notation "dDeg" => scatter_S100000_S1600000x1_S1600000_n_0_0_1
local notation "dGat" => gather_S100000x128_S1600000x1_S1600000x128_1_0_n_n_0_1_1128

/-- The permutation of the update rows' index set that moves the edge coordinate by σ and keeps the column. -/
def rowsPerm : S1600000x128.Idx ≃ S1600000x128.Idx :=
  (idxEquiv2 (n0 := 1600000) (n1 := 128)).trans
    ((Equiv.prodCongr σ (Equiv.refl (Fin 128))).trans (idxEquiv2 (n0 := 1600000) (n1 := 128)).symm)

theorem rowsPerm_ix2 (e : Fin 1600000) (k : Fin 128) : rowsPerm σ (ix2 e k) = ix2 (σ e) k := rfl

/-- The permutation of the per-edge updates' index set that moves the edge coordinate by σ. -/
def degPerm : S1600000.Idx ≃ S1600000.Idx where
  toFun j := ix1 (σ (j 0))
  invFun j := ix1 (σ.symm (j 0))
  left_inv j := (congrArg ix1 (σ.symm_apply_apply (j 0))).trans (eq_ix1 j).symm
  right_inv j := (congrArg ix1 (σ.apply_symm_apply (j 0))).trans (eq_ix1 j).symm

theorem degPerm_ix1 (e : Fin 1600000) : degPerm σ (ix1 e) = ix1 (σ e) := rfl

/-! ### The row scatter: the update (e, k) reads its destination at (e, 0) and sits in column k -/

theorem siIdx_rows (e : Fin 1600000) (k : Fin 128) (c : Fin (dRows).scatterDimsToOperandDims.length) :
    (dRows).siIdx (ix2 e k) c = ix2 e 0 := by
  funext b
  refine Fin.ext ?_
  match b with
  | ⟨0, _⟩ => rfl
  | ⟨1, _⟩ =>
    show c.val = 0
    exact Nat.lt_one_iff.mp c.isLt

theorem start_rows (idx idxS : IVec S1600000x1 32)
    (hidx : ∀ e : Fin 1600000, idxS (ix2 e 0) = idx (ix2 (σ e) 0)) (e : Fin 1600000) (k : Fin 128)
    (a : Fin S100000x128.rank) :
    (dRows).start (ix2 e k) idxS a = (dRows).start (ix2 (σ e) k) idx a := by
  unfold ScatterDims.start
  by_cases ha : a ∈ (dRows).scatterDimsToOperandDims
  · rw [dif_pos ha, dif_pos ha, siIdx_rows, siIdx_rows, hidx e]
  · rw [dif_neg ha, dif_neg ha]

theorem window_rows (e e' : Fin 1600000) (k : Fin 128) (a : Fin S100000x128.rank) :
    (dRows).window (ix2 e k) a = (dRows).window (ix2 e' k) a := by
  match a with
  | ⟨0, _⟩ => rfl
  | ⟨1, _⟩ => rfl

/-- The row segment sum does not depend on the order of the edge list. -/
theorem scatterRows_reindex (z : FVec Ideal S100000x128 .f32) (idx idxS : IVec S1600000x1 32)
    (upd updS : FVec Ideal S1600000x128 .f32)
    (hidx : ∀ e : Fin 1600000, idxS (ix2 e 0) = idx (ix2 (σ e) 0))
    (hupd : ∀ (e : Fin 1600000) (k : Fin 128), updS (ix2 e k) = upd (ix2 (σ e) k)) :
    Host.scatterAdd (F := Ideal) scatter_S100000x128_S1600000x1_S1600000x128_1_0_0_1 z idxS updS
      = Host.scatterAdd (F := Ideal) scatter_S100000x128_S1600000x1_S1600000x128_1_0_0_1 z idx upd := by
  show Ideal.hostScatterAdd (dRows) z idxS updS = Ideal.hostScatterAdd (dRows) z idx upd
  refine hostScatterAdd_reindex (dRows) (rowsPerm σ) z idx idxS upd updS ?_ ?_
  · intro j
    obtain ⟨e, k, rfl⟩ : ∃ (e : Fin 1600000) (k : Fin 128), j = ix2 e k := ⟨j 0, j 1, eq_ix2 j⟩
    rw [rowsPerm_ix2]
    exact resultIdx?_congr _ _ _ _ _ (start_rows σ idx idxS hidx e k) (window_rows e (σ e) k)
  · intro j
    obtain ⟨e, k, rfl⟩ : ∃ (e : Fin 1600000) (k : Fin 128), j = ix2 e k := ⟨j 0, j 1, eq_ix2 j⟩
    rw [rowsPerm_ix2]
    exact hupd e k

/-! ### The per-edge scatter: the update e reads its destination at (e, 0); it has no window axis -/

theorem siIdx_deg (e : Fin 1600000) (c : Fin (dDeg).scatterDimsToOperandDims.length) :
    (dDeg).siIdx (ix1 e) c = ix2 e 0 := by
  funext b
  refine Fin.ext ?_
  match b with
  | ⟨0, _⟩ => rfl
  | ⟨1, _⟩ =>
    show c.val = 0
    exact Nat.lt_one_iff.mp c.isLt

theorem start_deg (idx idxS : IVec S1600000x1 32)
    (hidx : ∀ e : Fin 1600000, idxS (ix2 e 0) = idx (ix2 (σ e) 0)) (e : Fin 1600000)
    (a : Fin S100000.rank) :
    (dDeg).start (ix1 e) idxS a = (dDeg).start (ix1 (σ e)) idx a := by
  unfold ScatterDims.start
  by_cases ha : a ∈ (dDeg).scatterDimsToOperandDims
  · rw [dif_pos ha, dif_pos ha, siIdx_deg, siIdx_deg, hidx e]
  · rw [dif_neg ha, dif_neg ha]

theorem window_deg (e e' : Fin 1600000) (a : Fin S100000.rank) :
    (dDeg).window (ix1 e) a = (dDeg).window (ix1 e') a := by
  match a with
  | ⟨0, _⟩ => rfl

/-- The per-edge segment sum does not depend on the order of the edge list. -/
theorem scatterDeg_reindex (z : FVec Ideal S100000 .f32) (idx idxS : IVec S1600000x1 32)
    (upd updS : FVec Ideal S1600000 .f32)
    (hidx : ∀ e : Fin 1600000, idxS (ix2 e 0) = idx (ix2 (σ e) 0))
    (hupd : ∀ e : Fin 1600000, updS (ix1 e) = upd (ix1 (σ e))) :
    Host.scatterAdd (F := Ideal) scatter_S100000_S1600000x1_S1600000_n_0_0_1 z idxS updS
      = Host.scatterAdd (F := Ideal) scatter_S100000_S1600000x1_S1600000_n_0_0_1 z idx upd := by
  show Ideal.hostScatterAdd (dDeg) z idxS updS = Ideal.hostScatterAdd (dDeg) z idx upd
  refine hostScatterAdd_reindex (dDeg) (degPerm σ) z idx idxS upd updS ?_ ?_
  · intro j
    obtain ⟨e, rfl⟩ : ∃ e : Fin 1600000, j = ix1 e := ⟨j 0, eq_ix1 j⟩
    rw [degPerm_ix1]
    exact resultIdx?_congr _ _ _ _ _ (start_deg σ idx idxS hidx e) (window_deg e (σ e))
  · intro j
    obtain ⟨e, rfl⟩ : ∃ e : Fin 1600000, j = ix1 e := ⟨j 0, eq_ix1 j⟩
    rw [degPerm_ix1]
    exact hupd e

/-! ### The row gather: the result (e, k) reads its start at (e, 0), has no batching axis, and its offset is column k -/

theorem siIdx_gat (e : Fin 1600000) (k : Fin 128) (c : Fin (dGat).startIndexMap.length) :
    (dGat).siIdx (ix2 e k) c = ix2 e 0 := by
  funext b
  refine Fin.ext ?_
  match b with
  | ⟨0, _⟩ => rfl
  | ⟨1, _⟩ =>
    show c.val = 0
    exact Nat.lt_one_iff.mp c.isLt

theorem start_gat (idx idxS : IVec S1600000x1 32)
    (hidx : ∀ e : Fin 1600000, idxS (ix2 e 0) = idx (ix2 (σ e) 0)) (e : Fin 1600000) (k : Fin 128)
    (a : Fin S100000x128.rank) :
    (dGat).start (ix2 e k) idxS a = (dGat).start (ix2 (σ e) k) idx a := by
  unfold GatherDims.start
  by_cases ha : a ∈ (dGat).startIndexMap
  · rw [dif_pos ha, dif_pos ha, siIdx_gat, siIdx_gat, hidx e]
  · rw [dif_neg ha, dif_neg ha]

theorem batchCoord_gat (e e' : Fin 1600000) (k : Fin 128) (a : Fin S100000x128.rank) :
    (dGat).batchCoord (ix2 e k) a = (dGat).batchCoord (ix2 e' k) a := by
  rw [GatherDims.batchCoord_eq_zero _ _ _ List.not_mem_nil, GatherDims.batchCoord_eq_zero _ _ _ List.not_mem_nil]

theorem offCoord_gat (e e' : Fin 1600000) (k : Fin 128) (a : Fin S100000x128.rank) :
    (dGat).offCoord (ix2 e k) a = (dGat).offCoord (ix2 e' k) a := by
  match a with
  | ⟨0, _⟩ => rfl
  | ⟨1, _⟩ => rfl

/-- The gathered row at position e of the permuted edge list is the gathered row at position σ e of the old one. -/
theorem gatherRows_reindex {α : Type} (x : S100000x128.Idx → α) (idx idxS : IVec S1600000x1 32)
    (hidx : ∀ e : Fin 1600000, idxS (ix2 e 0) = idx (ix2 (σ e) 0)) (e : Fin 1600000) (k : Fin 128) :
    Host.gather gather_S100000x128_S1600000x1_S1600000x128_1_0_n_n_0_1_1128 x idxS (ix2 e k)
      = Host.gather gather_S100000x128_S1600000x1_S1600000x128_1_0_n_n_0_1_1128 x idx (ix2 (σ e) k) := by
  show x ((dGat).operandIdx (ix2 e k) idxS) = x ((dGat).operandIdx (ix2 (σ e) k) idx)
  exact congrArg x (operandIdx_congr _ _ _ _ _ (start_gat σ idx idxS hidx e k) (batchCoord_gat e (σ e) k)
    (offCoord_gat e (σ e) k))

end Cert.KernelIdeal.SegmentReindex
-- ==== Proof.SegSorted.lean ====
/-
  The segment sums do not see the order of the edges.

  Listing the edges through a permutation σ of their positions — reading both the source and the destination table
  through σ — permutes the terms of each destination row's finite sum and nothing else: the neighbour sums of any node
  rows, and the in-degree with its floored reciprocal, are what the unpermuted tables give.
-/
import proofs.«146305_j81870666596807_2_alg».proof.Proof.HostChains
import proofs.«146305_j81870666596807_2_alg».proof.Proof.SegmentReindex
import Idealize.ShloMosaic.Lib.ValueIdx

noncomputable section

namespace Cert.KernelIdeal.SegSorted

open Cert.KernelIdeal Cert.KernelIdeal.Chains Idealize.ShloMosaic Idealize.ShloMosaic.ValueIdx

variable [Facts₀]

open Facts₀

/-- A table laid out as a one-column matrix reads, at row `e`, the table's entry `e`. -/
theorem col_apply (x : IVec S1600000 32) (e : Fin 1600000) :
    (broadcastInDim S1600000x1 ![0] bcast_S1600000_S1600000x1_0 x : IVec S1600000x1 32) (ix2 e 0) = x (ix1 e) := by
  unfold broadcastInDim
  refine congrArg x (funext fun a => ?_)
  obtain rfl : a = 0 := Subsingleton.elim _ _
  rfl

/-- Wrapping a node index depends on that index alone. -/
theorem wrapN_congr (s s' : IVec S1600000 32) (j j' : S1600000.Idx) (h : s j = s' j') :
    wrapN (F := Ideal) s j = wrapN (F := Ideal) s' j' := by
  unfold wrapN select cmpi addi
  dsimp only
  rw [h]
  rfl

variable (σ : Equiv.Perm (Fin 1600000))

/-- Rows gathered at permuted sources and summed at the same permuted destinations: the unpermuted sums. -/
theorem segRows_perm (h : FVec Ideal S100000x128 .f32) (src dst srcS dstS : IVec S1600000 32)
    (hd : ∀ e, dstS (ix1 e) = dst (ix1 (σ e))) (hs : ∀ e, srcS (ix1 e) = src (ix1 (σ e))) :
    segRows (F := Ideal) dstS (rowsOf (F := Ideal) h srcS) = segRows (F := Ideal) dst (rowsOf (F := Ideal) h src) := by
  unfold segRows
  refine SegmentReindex.scatterRows_reindex σ _ _ _ _ _ (fun e => ?_) (fun e k => ?_)
  · rw [col_apply, col_apply, hd]
  · unfold rowsOf
    refine SegmentReindex.gatherRows_reindex σ h _ _ (fun e' => ?_) e k
    rw [col_apply, col_apply]
    exact wrapN_congr _ _ _ _ (hs e')

/-- The same for node rows kept in the narrower format (at this instance the widening is the identity). -/
theorem segRowsB_perm (h : FVec Ideal S100000x128 .bf16) (src dst srcS dstS : IVec S1600000 32)
    (hd : ∀ e, dstS (ix1 e) = dst (ix1 (σ e))) (hs : ∀ e, srcS (ix1 e) = src (ix1 (σ e))) :
    segRows (F := Ideal) dstS (rowsOfB (F := Ideal) h srcS) = segRows (F := Ideal) dst (rowsOfB (F := Ideal) h src) := by
  unfold segRows
  refine SegmentReindex.scatterRows_reindex σ _ _ _ _ _ (fun e => ?_) (fun e k => ?_)
  · rw [col_apply, col_apply, hd]
  · unfold rowsOfB
    show Host.gather gather_S100000x128_S1600000x1_S1600000x128_1_0_n_n_0_1_1128 h _ (ix2 e k)
      = Host.gather gather_S100000x128_S1600000x1_S1600000x128_1_0_n_n_0_1_1128 h _ (ix2 (σ e) k)
    refine SegmentReindex.gatherRows_reindex σ h _ _ (fun e' => ?_) e k
    rw [col_apply, col_apply]
    exact wrapN_congr _ _ _ _ (hs e')

/-- The in-degree counts a one per edge whatever the order. -/
theorem degOf_perm (dst dstS : IVec S1600000 32) (hd : ∀ e, dstS (ix1 e) = dst (ix1 (σ e))) :
    degOf (F := Ideal) dstS = degOf (F := Ideal) dst := by
  unfold degOf
  refine SegmentReindex.scatterDeg_reindex σ _ _ _ _ _ (fun e => ?_) (fun e => ?_)
  · rw [col_apply, col_apply, hd]
  · unfold broadcastInDim
    exact congrArg _ (funext fun a => a.elim0)

theorem invOf_perm (dst dstS : IVec S1600000 32) (hd : ∀ e, dstS (ix1 e) = dst (ix1 (σ e))) :
    invOf (F := Ideal) dstS = invOf (F := Ideal) dst := by
  unfold invOf
  rw [degOf_perm σ dst dstS hd]

end Cert.KernelIdeal.SegSorted

end
-- ==== Proof.LibArgsortPerm.lean ====
/-
  A stable argsort of a rank-1 table, and a take-gather through it, at a general size.

  Sorting the pairs (x k, k) along the single axis of a vector of n entries reads both operands through one self-map
  of the positions (the position whose pair lands at each place); the second operand being the identity table, the
  second sorted component holds at place e the word of that position's number. A number below 2^31, as a 32-bit word,
  is non-negative read signed and reads back as itself. A take along the one axis of an operand of N entries at start
  indices of shape [E, 1] reads the operand at the start index, read signed and clamped into [0, N - 1]. Together:
  a stable argsort followed by take-gathers reads every table through the one sorting self-map, which is a bijection
  because the stable sort only rearranges the list of positions.
-/
import Idealize.ShloMosaic.Lib.SortFacts
import Idealize.ShloMosaic.Lib.ValueIdx

noncomputable section

namespace Idealize.ShloMosaic.ArgsortPerm

open Idealize.ShloMosaic
open Idealize.ShloMosaic.ValueIdx

/-! ## Facts at a general size -/

section General
variable {α β : Type}

/-- On a rank-1 shape the second component of a two-operand sort reads its operand through the one self-map of the
    positions that the comparator on the pairs determines. -/
theorem sort2_snd_rank1 {n : Nat} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The argsort on a rank-1 shape: sorting the pairs (x k, k) carries the identity table to the table of the words of
    the sorting self-map, whatever relation B spells "the pair at k sorts strictly before the pair at k'". -/
theorem argsort_rank1 {n w : Nat} (cmp : α × BitVec w → α × BitVec w → BitVec 1) (x : (⟨1, ![n]⟩ : Shape).Idx → α)
    (B : Fin n → Fin n → Bool)
    (hB : ∀ k k', B k k' = (cmp (x (Shape.Idx.ofFin k), iotaInDim ⟨1, ![n]⟩ w 0 (Shape.Idx.ofFin k))
      (x (Shape.Idx.ofFin k'), iotaInDim ⟨1, ![n]⟩ w 0 (Shape.Idx.ofFin k')) == 1#1)) (e : Fin n) :
    (Host.sort2 ⟨1, ![n]⟩ 0 cmp x (iotaInDim ⟨1, ![n]⟩ w 0)).2 (ix1 e) = BitVec.ofNat w (sortedFrom B e).val := by
  obtain rfl : B = fun k k' => cmp (x (Shape.Idx.ofFin k), iotaInDim ⟨1, ![n]⟩ w 0 (Shape.Idx.ofFin k))
      (x (Shape.Idx.ofFin k'), iotaInDim ⟨1, ![n]⟩ w 0 (Shape.Idx.ofFin k')) == 1#1 :=
    funext fun k => funext fun k' => hB k k'
  exact sort2_snd_rank1 cmp x (iotaInDim ⟨1, ![n]⟩ w 0) (ix1 e)

/-- A natural number below 2^31, as a 32-bit word, reads back as itself when the word is read signed. -/
theorem toInt_ofNat_small (n : Nat) (h : n < 2 ^ 31) : (BitVec.ofNat 32 n).toInt = (n : Int) := by
  rw [BitVec.toInt_eq_toNat_cond, BitVec.toNat_ofNat]
  have hm : n % 2 ^ 32 = n := Nat.mod_eq_of_lt (by omega)
  rw [hm, if_pos (by omega)]

/-- Such a word is not below zero in the signed order. -/
theorem slt_zero_ofNat_small (n : Nat) (h : n < 2 ^ 31) : IntOp.cmpi .slt (BitVec.ofNat 32 n) 0#32 = 0#1 := by
  have hs : (BitVec.ofNat 32 n).slt 0#32 = false := by
    rw [BitVec.slt, toInt_ofNat_small n h]
    simp
  show BitVec.ofBool ((BitVec.ofNat 32 n).slt 0#32) = 0#1
  rw [hs]
  rfl

end General

section Take
variable {α : Type}

/-- A rank-1 index's coordinate is below the extent, written as the extent itself. -/
theorem idx1_lt {n : Nat} (j : (⟨1, ![n]⟩ : Shape).Idx) : (j 0).val < n := (j 0).isLt

/-- The dimension numbers of a take along the one axis of an operand of N entries, at start indices of shape
    [E, 1], with a result of E entries. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index [t, 0] of result index t. -/
abbrev take1Idx {E : Nat} (y : (⟨1, ![E]⟩ : Shape).Idx) : (⟨2, ![E, 1]⟩ : Shape).Idx :=
  fun a => match a with | ⟨0, _⟩ => ⟨(y 0).val, idx1_lt y⟩ | ⟨1, _⟩ => ⟨0, Nat.one_pos⟩

/-- Such a gather read at t: the operand at the start index idx[t, 0], read signed and clamped into [0, N - 1]. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (take1Dims N E wf) x idx y = x (ix1 ⟨min (idx (take1Idx y)).toInt.toNat (N - 1), by omega⟩) := by
  unfold Host.gather
  refine congrArg x ?_
  funext a
  obtain rfl : a = 0 := Subsingleton.elim _ _
  refine Fin.ext ?_
  show (take1Dims N E wf).start y idx 0 + (take1Dims N E wf).batchCoord y 0 + (take1Dims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx y ⟨List.idxOf (0 : Fin 1) (take1Dims N E wf).startIndexMap,
      List.idxOf_lt_length_iff.2 (List.mem_singleton.mpr rfl)⟩ = take1Idx y := by
    funext b; refine Fin.ext ?_
    match b with
    | ⟨0, _⟩ => rfl
    | ⟨1, _⟩ => rfl
  rw [hsi]
  rfl

end Take

end Idealize.ShloMosaic.ArgsortPerm
-- ==== Proof.SortPerm.lean ====
/-
  A stable argsort followed by index reads is a reindexing by one permutation.

  Sorting the pairs (dst k, k) along the single axis of a vector of E entries reads both operands through one
  self-map π of the positions: π e is the position whose pair lands at place e. The stable sort only rearranges
  the list of positions, so π is onto, hence a bijection of a finite set. The second operand is the identity
  table, so the second sorted component holds at place e the 32-bit word of the number π e. Because
  π e < E < 2^31, that word is non-negative read as a signed integer: the wrap-around of negative indices leaves
  it alone, reading it back as a signed integer gives π e again, and clamping into [0, E - 1] changes nothing.
  Gathering ANY table x through the sorted order therefore reads x at π e. The facts at a general size are in the
  imported general module; here they are used at the 1,600,000 edges.
-/
import proofs.«146305_j81870666596807_2_alg».proof.KernelIdeal
import proofs.«146305_j81870666596807_2_alg».proof.Proof.LibArgsortPerm
import Idealize.ShloMosaic.Lib.SortFacts
import Idealize.ShloMosaic.Lib.ValueIdx
import Idealize.ShloMosaic.Lib.Pipeline.Value

noncomputable section

namespace Cert.KernelIdeal.SortPerm

open Idealize.ShloMosaic Idealize.SL.Sem
open Idealize.ShloMosaic.ValueIdx
open Idealize.ShloMosaic.ArgsortPerm

/-! ## The sort of the 1,600,000 edges and the reads through it -/

variable [Facts₀]
open Facts₀

/-- The argsort: the second component of the stable sort of the pairs (dst k, k) by dst. -/
def order (dst : IVec S1600000 32) : IVec S1600000 32 :=
  (Host.sort2 S1600000 0 comparator_i32_i32_d0 dst (iotaInDim S1600000 32 0)).2

/-- The wrap-around of negative indices: add the extent to an index below zero. -/
def wrapE (o : IVec S1600000 32) : IVec S1600000 32 :=
  select (cmpi .slt o (broadcastInDim S1600000 ![] bcast_S_S1600000 (constantI S_ 32 0#32)))
    (addi o (broadcastInDim S1600000 ![] bcast_S_S1600000 (constantI S_ 32 1600000#32))) o

/-- The read of a table through an order: a take along the one axis at the wrapped indices. -/
def take1 (x o : IVec S1600000 32) : IVec S1600000 32 :=
  Host.gather gather_S1600000_S1600000x1_S1600000_n_0_n_n_0_1_1 x
    (broadcastInDim S1600000x1 ![0] bcast_S1600000_S1600000x1_0 (wrapE o))

/-- "The pair at position k sorts strictly before the pair at position k'." -/
def before (dst : IVec S1600000 32) (k k' : Fin 1600000) : Bool :=
  comparator_i32_i32_d0 (dst (Shape.Idx.ofFin k), iotaInDim S1600000 32 0 (Shape.Idx.ofFin k))
    (dst (Shape.Idx.ofFin k'), iotaInDim S1600000 32 0 (Shape.Idx.ofFin k')) == 1#1

/-- The relation is the comparator on the pairs (dst k, k). -/
theorem before_spec (dst : IVec S1600000 32) (k k' : Fin 1600000) :
    before dst k k' = (comparator_i32_i32_d0 (dst (Shape.Idx.ofFin k), iotaInDim S1600000 32 0 (Shape.Idx.ofFin k))
      (dst (Shape.Idx.ofFin k'), iotaInDim S1600000 32 0 (Shape.Idx.ofFin k')) == 1#1) := by
  unfold before
  exact Eq.refl _

/-- The sorted order holds at place e the word of the number of the position whose pair the stable sort puts
    there. -/
theorem order_apply (dst : IVec S1600000 32) (e : Fin 1600000) :
    order dst (ix1 e) = BitVec.ofNat 32 (sortedFrom (before dst) e).val := by
  unfold order
  exact argsort_rank1 (n := 1600000) (w := 32) comparator_i32_i32_d0 dst (before dst) (before_spec dst) e

/-- THE SORTING SELF-MAP: a bijection π of the positions such that the sorted order holds at place e the word of
    π e. -/
theorem exists_src (dst : IVec S1600000 32) : ∃ π : Fin 1600000 → Fin 1600000,
    Function.Bijective π ∧ ∀ e : Fin 1600000, order dst (ix1 e) = BitVec.ofNat 32 (π e).val :=
  ⟨sortedFrom (before dst), ⟨sortedFrom_injective _, sortedFrom_surjective _⟩, order_apply dst⟩

/-- The wrap-around at an index, as words. -/
theorem wrapE_apply (o : IVec S1600000 32) (i : S1600000.Idx) :
    wrapE o i = Scalar.select (IntOp.cmpi .slt (o i) 0#32) (IntOp.addi (o i) 1600000#32) (o i) := rfl

/-- Where the order holds the word of a number n below the extent, the read is the table at n. -/
theorem take1_apply (x o : IVec S1600000 32) (e : Fin 1600000) (n : Nat) (hn : n < 1600000)
    (ho : o (ix1 e) = BitVec.ofNat 32 n) : take1 x o (ix1 e) = x (ix1 ⟨n, hn⟩) := by
  have hG : gather_S1600000_S1600000x1_S1600000_n_0_n_n_0_1_1
      = take1Dims 1600000 1600000 gather_S1600000_S1600000x1_S1600000_n_0_n_n_0_1_1_wf := rfl
  unfold take1
  rw [hG, gather_take1_apply (by omega)]
  refine congrArg (fun k : Fin 1600000 => x (ix1 k)) (Fin.ext ?_)
  show min (broadcastInDim S1600000x1 ![0] bcast_S1600000_S1600000x1_0 (wrapE o) (take1Idx (ix1 e))).toInt.toNat
    (1600000 - 1) = n
  have hb : broadcastInDim S1600000x1 ![0] bcast_S1600000_S1600000x1_0 (wrapE o) (take1Idx (ix1 e))
      = wrapE o (ix1 e) := by
    refine broadcastInDim_apply _ _ _ _ _ fun a => ?_
    obtain rfl : a = 0 := Subsingleton.elim _ _
    rw [if_neg (by decide)]
    rfl
  have h31 : n < 2 ^ 31 := by omega
  rw [hb, wrapE_apply, ho, slt_zero_ofNat_small n h31, select_zero, toInt_ofNat_small n h31, Int.toNat_natCast]
  omega

/-- THE REINDEXING: reading any table through the sorted order is reading it through one permutation of the
    positions. -/
theorem exists_perm (dst : IVec S1600000 32) : ∃ σ : Equiv.Perm (Fin 1600000),
    ∀ (x : IVec S1600000 32) (e : Fin 1600000), take1 x (order dst) (ix1 e) = x (ix1 (σ e)) := by
  obtain ⟨π, hπ, hord⟩ := exists_src dst
  exact ⟨Equiv.ofBijective π hπ, fun x e => take1_apply x (order dst) e (π e).val (π e).isLt (hord e)⟩

end Cert.KernelIdeal.SortPerm
-- ==== Proof.Spec.lean ====
/-
  The two scalar formulas both programs compute, over the extended reals.

  A node's row in one layer: the sum of its in-neighbours' rows (`a`), scaled by the reciprocal of its
  in-degree (`s`), goes through one weight matrix (column `wl`), the node's own row (`h`) through a second
  (column `wr`), and a bias `b` is added. The last layer's two-entry row is then normalised by log-softmax.
-/
import Idealize.ShloMosaic.PureOps.Ideal

noncomputable section

namespace Cert.Spec

open Idealize.ShloMosaic

/-- One entry of a layer before its activation: `(Σₖ (aₖ·s)·wlₖ + Σₖ hₖ·wrₖ) + b`. -/
def dense (a : Fin 128 → EReal) (s : EReal) (h : Fin 128 → EReal) (wl wr : Fin 128 → EReal) (b : EReal) : EReal :=
  ((∑ k : Fin 128, (a k * s) * wl k) + ∑ k : Fin 128, h k * wr k) + b

/-- Entry `q` of the log-softmax of a two-entry row `z`: with `M = max z₀ z₁`,
    `(z_q − M) − log (Σ_{q'} exp (z_{q'} − M))`. -/
def lsm (z : Fin 2 → EReal) (q : Fin 2) : EReal :=
  (z q - max (z 0) (z 1)) - Ideal.log (∑ q' : Fin 2, Ideal.exp (z q' - max (z 0) (z 1)))

end Cert.Spec

end
-- ==== Proof.DensePayload.lean ====
/-
  The three layer bodies read at one entry, over the extended reals.

  Each body takes a block of 5000 rows. Row `p` of the neighbour sums is scaled by the row's reciprocal degree and
  multiplied into one weight matrix, row `p` of the node block into a second, and a bias row is added: entry `(p, q)`
  of that is `Spec.dense` of row `p` of the two blocks and column `q` of the two matrices. The first two bodies then
  take the maximum with zero; the third has two columns and normalises each row by log-softmax (`Spec.lsm`).
  Over the extended reals a change of float format is the identity, so nothing is rounded on the way.
-/
import proofs.«146305_j81870666596807_2_alg».proof.Proof.Gen.KernelIdeal.Skeleton
import proofs.«146305_j81870666596807_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.DensePayload

open Idealize.ShloMosaic Idealize.SL.Sem Idealize.ShloMosaic.ValueIdx Cert.KernelIdeal.Gen

/-! ## A column read along the rows -/

section Layout
variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two products -/

theorem lhs128_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs128_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs128_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs128_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero block, at `(p, q)`: the sum over the 128 shared coordinates of row `p` of the left
    factor times column `q` of the right one. -/
theorem matmul128_apply {φ₁ φ₂ : FTy} (lhs : FVec Ideal S5000x128 φ₁) (rhs : FVec Ideal S128x128 φ₂) (p : Fin 5000) (q : Fin 128) :
    matmul (F := Ideal) dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply _ none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

theorem lhs2_0 (j : S5000x2.Idx) (k : dot_S5000x128_S128x2_S5000x2_1_0_0_1_n_n.contr.Idx) :
    (dot_S5000x128_S128x2_S5000x2_1_0_0_1_n_n.lhsIdx j k 0).val = (j 0).val := by
  unfold DotDims.lhsIdx
  rw [dif_neg (show ¬(0 : Fin S5000x128.rank) ∈ dot_S5000x128_S128x2_S5000x2_1_0_0_1_n_n.lhsBatch by decide),
    dif_pos (show (0 : Fin S5000x128.rank) ∈ dot_S5000x128_S128x2_S5000x2_1_0_0_1_n_n.lhsNonContracting by decide)]
  rfl
theorem lhs2_1 (j : S5000x2.Idx) (k : dot_S5000x128_S128x2_S5000x2_1_0_0_1_n_n.contr.Idx) :
    (dot_S5000x128_S128x2_S5000x2_1_0_0_1_n_n.lhsIdx j k 1).val = (k ⟨0, by decide⟩).val :=
  dot_S5000x128_S128x2_S5000x2_1_0_0_1_n_n.lhsIdx_val_of_single rfl j k
theorem rhs2_0 (j : S5000x2.Idx) (k : dot_S5000x128_S128x2_S5000x2_1_0_0_1_n_n.contr.Idx) :
    (dot_S5000x128_S128x2_S5000x2_1_0_0_1_n_n.rhsIdx j k 0).val = (k ⟨0, by decide⟩).val :=
  dot_S5000x128_S128x2_S5000x2_1_0_0_1_n_n.rhsIdx_val_of_single rfl j k
theorem rhs2_1 (j : S5000x2.Idx) (k : dot_S5000x128_S128x2_S5000x2_1_0_0_1_n_n.contr.Idx) :
    (dot_S5000x128_S128x2_S5000x2_1_0_0_1_n_n.rhsIdx j k 1).val = (j 1).val := by
  unfold DotDims.rhsIdx
  rw [dif_neg (show ¬(1 : Fin S128x2.rank) ∈ dot_S5000x128_S128x2_S5000x2_1_0_0_1_n_n.rhsBatch by decide),
    dif_pos (show (1 : Fin S128x2.rank) ∈ dot_S5000x128_S128x2_S5000x2_1_0_0_1_n_n.rhsNonContracting by decide)]
  rfl

/-- The product into the zero block, at `(p, q)`: the sum over the 128 shared coordinates of row `p` of the left
    factor times column `q` of the right one. -/
theorem matmul2_apply {φ₁ φ₂ : FTy} (lhs : FVec Ideal S5000x128 φ₁) (rhs : FVec Ideal S128x2 φ₂) (p : Fin 5000) (q : Fin 2) :
    matmul (F := Ideal) dot_S5000x128_S128x2_S5000x2_1_0_0_1_n_n none lhs rhs (constant (F := Ideal) S5000x2 .f32 0x00000000#32) (ix2 p q)
      = ∑ k : Fin 128, lhs (ix2 p k) * rhs (ix2 k q) := by
  refine (Ideal.matmul_constant_zero_apply _ none lhs rhs (ix2 p q)).trans ?_
  rw [← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k :=
    funext fun a => Fin.ext (by
      match a with
      | ⟨0, _⟩ => exact lhs2_0 _ _
      | ⟨1, _⟩ => exact (lhs2_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q :=
    funext fun a => Fin.ext (by
      match a with
      | ⟨0, _⟩ => exact (rhs2_0 _ _).trans hk
      | ⟨1, _⟩ => exact rhs2_1 _ _)
  rw [el, er]

/-! ## The two lanes of a row -/

/-- Row `p` of a two-column block with lane `k` put back is `(p, k)`. -/
theorem lift_lane (h : S5000x2.Reduces [1] S5000) (p : Fin 5000) (k : Fin 2) :
    h.lift (ix1 p) k = ix2 p k := by
  funext c; apply Fin.ext
  match c with
  | ⟨0, _⟩ => rfl
  | ⟨1, _⟩ => rfl

/-- The sum over the two lanes, at row `p`. -/
theorem laneSum_apply (z : FVec Ideal S5000x2 .f32) (hφ : FKind.Formats .f32)
    (hacc : (0x00000000#32 : BitVec 32) = FKind.add.neutral .f32 hφ) (p : Fin 5000) :
    multiReduction (F := Ideal) .add [1] S5000 z 0x00000000#32 reduces_S5000x2_S5000 hφ hacc (ix1 p)
      = ∑ k : Fin 2, z (ix2 p k) := by
  refine (Ideal.multiReduction_add_single z _ reduces_S5000x2_S5000 hφ hacc (ix1 p)).trans ?_
  show ∑ k : Fin 2, z (reduces_S5000x2_S5000.lift (ix1 p) k) = _
  exact Finset.sum_congr rfl fun k _ => congrArg z (lift_lane _ p k)

/-- Over two entries the running maximum from `-∞` is the larger of the two. -/
theorem fold_max_two (g : Fin 2 → EReal) : (Finset.univ : Finset (Fin 2)).fold max ⊥ g = max (g 0) (g 1) := by
  rw [Finset.univ_fin2, Finset.fold_insert (by decide), Finset.fold_singleton, max_bot_right]

/-- The same over an index set known to have two elements, from a value known to be `-∞`. -/
theorem fold_max_two' {n : ℕ} (hn : n = 2) (b : EReal) (hb : b = ⊥) (g : Fin n → EReal) :
    (Finset.univ : Finset (Fin n)).fold max b g = max (g ⟨0, by omega⟩) (g ⟨1, by omega⟩) := by
  subst hn hb
  exact fold_max_two g

/-- The word of `-∞`. -/
theorem ofBits_neg_inf : FloatOps.ofBits (F := Ideal) .f32 0xFF800000#32 = (⊥ : EReal) := by
  show Ideal.ofBits .f32 0xFF800000#32 = ⊥
  simp [Ideal.ofBits, Ideal.ieee]

/-- The maximum over the two lanes from `-∞`, at row `p`: the larger of the row's two entries. -/
theorem laneMax_apply (z : FVec Ideal S5000x2 .f32) (hφ : FKind.Formats .f32)
    (hacc : (0xFF800000#32 : BitVec 32) = FKind.maximumf.neutral .f32 hφ) (p : Fin 5000) :
    multiReduction (F := Ideal) .maximumf [1] S5000 z 0xFF800000#32 reduces_S5000x2_S5000 hφ hacc (ix1 p)
      = max (z (ix2 p 0)) (z (ix2 p 1)) := by
  refine (Ideal.multiReduction_maximumf_single z _ reduces_S5000x2_S5000 hφ hacc (ix1 p)).trans ?_
  refine (fold_max_two' (n := S5000x2.size 1) rfl _ ofBits_neg_inf _).trans ?_
  exact congrArg₂ max (congrArg z (lift_lane _ p 0)) (congrArg z (lift_lane _ p 1))

/-- A two-column block minus its row maximum, then minus the logarithm of the row's sum of exponentials: entry
    `(p, q)` is the log-softmax of row `p` at `q`. -/
theorem lsm_apply (Z : FVec Ideal S5000x2 .f32) (hφ hφ' : FKind.Formats .f32)
    (hmax : (0xFF800000#32 : BitVec 32) = FKind.maximumf.neutral .f32 hφ)
    (hadd : (0x00000000#32 : BitVec 32) = FKind.add.neutral .f32 hφ') (p : Fin 5000) (q : Fin 2) :
    subf (subf Z (broadcastTo S5000x2 (shapeCast S5000x1
          (multiReduction (F := Ideal) .maximumf [1] S5000 Z 0xFF800000#32 reduces_S5000x2_S5000 hφ hmax)
          shapeCasts_S5000_S5000x1) broadcasts_S5000x1_S5000x2))
        (broadcastTo S5000x2 (log (shapeCast S5000x1
          (multiReduction (F := Ideal) .add [1] S5000
            (exp (subf Z (broadcastTo S5000x2 (shapeCast S5000x1
              (multiReduction (F := Ideal) .maximumf [1] S5000 Z 0xFF800000#32 reduces_S5000x2_S5000 hφ hmax)
              shapeCasts_S5000_S5000x1) broadcasts_S5000x1_S5000x2)))
            0x00000000#32 reduces_S5000x2_S5000 hφ' hadd)
          shapeCasts_S5000_S5000x1)) broadcasts_S5000x1_S5000x2) (ix2 p q)
      = Cert.Spec.lsm (fun q' => Z (ix2 p q')) q := by
  have hD : ∀ q' : Fin 2, (subf Z (broadcastTo S5000x2 (shapeCast S5000x1
          (multiReduction (F := Ideal) .maximumf [1] S5000 Z 0xFF800000#32 reduces_S5000x2_S5000 hφ hmax)
          shapeCasts_S5000_S5000x1) broadcasts_S5000x1_S5000x2)) (ix2 p q')
        = Z (ix2 p q') - max (Z (ix2 p 0)) (Z (ix2 p 1)) := fun q' =>
    congrArg (Z (ix2 p q') - ·) ((broadcastTo_a1_ab_apply _ _ p q').trans
      ((shapeCast_a_a1_apply _ _ p 0).trans (laneMax_apply Z hφ hmax p)))
  unfold Cert.Spec.lsm
  refine congrArg₂ (· - ·) (hD q) ?_
  refine (broadcastTo_a1_ab_apply _ _ p q).trans ?_
  show Ideal.log _ = Ideal.log _
  refine congrArg Ideal.log ?_
  refine (shapeCast_a_a1_apply _ _ p 0).trans ?_
  refine (laneSum_apply _ hφ' hadd p).trans ?_
  exact Finset.sum_congr rfl fun k _ => congrArg Ideal.exp (hD k)

/-! ## The bodies at an entry -/

/-- The zero word is the extended real `0`, also when it is read as a single value rather than a block. -/
theorem scalar_zero : Scalar.ofBits (F := Ideal) .f32 0x00000000#32 = (0 : EReal) := Ideal.ofBits_zero_f32

/-- Body 0 at `(p, q)`. -/
theorem pay0_apply (v0 : FVec Ideal S5000x128 .f32) (v2 : FVec Ideal S5000x1 .f32) (v7 : FVec Ideal S5000x128 .f32)
    (v9 v12 : FVec Ideal S128x128 .f32) (v18 : FVec Ideal S1x128 .f32) (p : Fin 5000) (q : Fin 128) :
    k0_pay1 (F := Ideal) v0 v2 v7 v9 v12 v18 (ix2 p q)
      = max (Cert.Spec.dense (fun k => v0 (ix2 p k)) (v2 (ix2 p 0)) (fun k => v7 (ix2 p k)) (fun k => v9 (ix2 k q))
          (fun k => v12 (ix2 k q)) (v18 (ix2 0 q))) 0 := by
  unfold k0_pay1 Cert.Spec.dense
  simp only [shapeCast_self, truncf_apply, maximumf_apply, addf_apply, mulf_apply, broadcast_apply, matmul128_apply,
    broadcastTo_1b_ab_apply, broadcastTo_a1_ab_apply, scalar_zero]

/-- Body 1 at `(p, q)`. -/
theorem pay1_apply (v0 : FVec Ideal S5000x128 .f32) (v2 : FVec Ideal S5000x1 .f32) (v7 : FVec Ideal S5000x128 .bf16)
    (v9 v12 : FVec Ideal S128x128 .f32) (v18 : FVec Ideal S1x128 .f32) (p : Fin 5000) (q : Fin 128) :
    k1_pay1 (F := Ideal) v0 v2 v7 v9 v12 v18 (ix2 p q)
      = max (Cert.Spec.dense (fun k => v0 (ix2 p k)) (v2 (ix2 p 0)) (fun k => v7 (ix2 p k)) (fun k => v9 (ix2 k q))
          (fun k => v12 (ix2 k q)) (v18 (ix2 0 q))) 0 := by
  unfold k1_pay1 Cert.Spec.dense
  simp only [shapeCast_self, truncf_apply, maximumf_apply, addf_apply, mulf_apply, broadcast_apply, matmul128_apply,
    broadcastTo_1b_ab_apply, broadcastTo_a1_ab_apply, scalar_zero]

/-- Body 2 at `(p, q)`. -/
theorem pay2_apply (v0 : FVec Ideal S5000x128 .f32) (v2 : FVec Ideal S5000x1 .f32) (v7 : FVec Ideal S5000x128 .bf16)
    (v9 v12 : FVec Ideal S128x2 .f32) (v18 : FVec Ideal S1x2 .f32) (p : Fin 5000) (q : Fin 2) :
    k2_pay1 (F := Ideal) v0 v2 v7 v9 v12 v18 (ix2 p q)
      = Cert.Spec.lsm (fun q' => Cert.Spec.dense (fun k => v0 (ix2 p k)) (v2 (ix2 p 0)) (fun k => v7 (ix2 p k))
          (fun k => v9 (ix2 k q')) (fun k => v12 (ix2 k q')) (v18 (ix2 0 q'))) q := by
  unfold k2_pay1
  refine (lsm_apply _ _ _ _ _ p q).trans ?_
  refine congrArg (fun z => Cert.Spec.lsm z q) (funext fun q' => ?_)
  unfold Cert.Spec.dense
  simp only [shapeCast_self, truncf_apply, addf_apply, mulf_apply, matmul2_apply,
    broadcastTo_1b_ab_apply, broadcastTo_a1_ab_apply]

end Cert.KernelIdeal.DensePayload

end
-- ==== Proof.RegionValue.lean ====
/-
  From blocks to whole arrays, for the three dense layers of the kernel. Each layer runs over twenty
  row tiles of 5000 rows. At tile t the body reads rows 5000 t … 5000 t + 4999 of the aggregated
  rows, of the reciprocal in-degrees and of the node rows, and the whole weight matrices and bias,
  and writes rows 5000 t … 5000 t + 4999 of its result. Given what the body computes at one
  position of a tile (a hypothesis here), every tile's result is the same row-wise formula of the
  whole operand arrays read through that tile, and the twenty tiles cover the 100000 rows: so the
  result array is that formula at every index.
-/
import proofs.«146305_j81870666596807_2_alg».proof.Proof.Gen.KernelIdeal.Frame
import proofs.«146305_j81870666596807_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

section Blocks

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! ## The first layer -/

/-- The first two layers' row-wise formula over whole arrays: entry (n, q) is the dense formula of row n of the
    aggregated rows x, the reciprocal in-degree s at n, row n of the node rows a, column q of the two weight
    matrices and entry q of the bias, cut below at zero. -/
def reluLayer (x : S100000x128.Idx → EReal) (s : S100000x1.Idx → EReal) (a : S100000x128.Idx → EReal)
    (wl wr : S128x128.Idx → EReal) (b : S1x128.Idx → EReal) : S100000x128.Idx → EReal :=
  fun i => max (Cert.Spec.dense (fun k => x (ix2 (i 0) k)) (s (ix2 (i 0) 0)) (fun k => a (ix2 (i 0) k))
    (fun k => wl (ix2 k (i 1))) (fun k => wr (ix2 k (i 1))) (b (ix2 0 (i 1)))) 0

/-- One position of one tile: if the tile's blocks read the whole arrays at row (i 0) and column (i 1), the
    body's value at (p, q) is the row-wise formula at i. -/
theorem reluLayer_point
    (pay : FVec Ideal S5000x128 .f32 → FVec Ideal S5000x1 .f32 → FVec Ideal S5000x128 .f32 → FVec Ideal S128x128 .f32 →
      FVec Ideal S128x128 .f32 → FVec Ideal S1x128 .f32 → S5000x128.Idx → EReal)
    (hpay : ∀ (v0 : FVec Ideal S5000x128 .f32) (v2 : FVec Ideal S5000x1 .f32) (v7 : FVec Ideal S5000x128 .f32)
      (v9 v12 : FVec Ideal S128x128 .f32) (v18 : FVec Ideal S1x128 .f32) (p : Fin 5000) (q : Fin 128),
      pay v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (x0 : FVec Ideal S5000x128 .f32) (x5 : FVec Ideal S5000x1 .f32) (x1 : FVec Ideal S5000x128 .f32)
    (x2 x4 : FVec Ideal S128x128 .f32) (x3 : FVec Ideal S1x128 .f32)
    (A0 : S100000x128.Idx → EReal) (A5 : S100000x1.Idx → EReal) (A1 : S100000x128.Idx → EReal)
    (A2 A4 : S128x128.Idx → EReal) (A3 : S1x128.Idx → EReal)
    (j : S5000x128.Idx) (p : Fin 5000) (q : Fin 128) (hj : j = ix2 p q) (i : S100000x128.Idx)
    (h0 : ∀ k : Fin 128, x0 (ix2 p k) = A0 (ix2 (i 0) k)) (h5 : x5 (ix2 p 0) = A5 (ix2 (i 0) 0))
    (h1 : ∀ k : Fin 128, x1 (ix2 p k) = A1 (ix2 (i 0) k))
    (h2 : ∀ k : Fin 128, x2 (ix2 k q) = A2 (ix2 k (i 1))) (h4 : ∀ k : Fin 128, x4 (ix2 k q) = A4 (ix2 k (i 1)))
    (h3 : x3 (ix2 0 q) = A3 (ix2 0 (i 1))) :
    pay x0 x5 x1 x2 x4 x3 j = reluLayer A0 A5 A1 A2 A4 A3 i := by
  subst hj
  refine (hpay x0 x5 x1 x2 x4 x3 p q).trans ?_
  unfold reluLayer
  simp only [h0, h5, h1, h2, h4, h3]

/-- The index maps of the first layer's windows, over its twenty tiles: the row-tiled windows are at block (t, 0),
    the whole-array windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Tile t of the aggregated rows is rows 5000 t … of the whole array. -/
theorem blk0_0_apply (c : Dev nD) (t : Fin cfg0.N) (x : S5000x128.Idx) (k : S100000x128.Idx)
    (hk0 : (k 0).val = 5000 * t.val + (x 0).val) (hk1 : (k 1).val = (x 1).val) :
    (iblk0 (F := Ideal) V c 0 t : FVec Ideal S5000x128 .f32) x = (V c main_v33 : S100000x128.Idx → EReal) k := by
  obtain ⟨e0, e1, -⟩ := idx_facts0 t
  unfold iblk0
  rw [View.read_apply]
  show V c main_v33 _ = V c main_v33 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Tile t of the node rows is rows 5000 t … of the whole array. -/
theorem blk0_1_apply (c : Dev nD) (t : Fin cfg0.N) (x : S5000x128.Idx) (k : S100000x128.Idx)
    (hk0 : (k 0).val = 5000 * t.val + (x 0).val) (hk1 : (k 1).val = (x 1).val) :
    (iblk0 (F := Ideal) V c 1 t : FVec Ideal S5000x128 .f32) x = (V c main_arg0 : S100000x128.Idx → EReal) k := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

/-- The first weight matrix's block is the whole matrix. -/
theorem blk0_2_apply (c : Dev nD) (t : Fin cfg0.N) (x : S128x128.Idx) (k : S128x128.Idx)
    (hk0 : (k 0).val = (x 0).val) (hk1 : (k 1).val = (x 1).val) :
    (iblk0 (F := Ideal) V c 2 t : FVec Ideal S128x128 .f32) x = (V c main_v34 : S128x128.Idx → EReal) k := by
  obtain ⟨-, -, -, -, e0, e1, -⟩ := idx_facts0 t
  unfold iblk0
  rw [View.read_apply]
  show V c main_v34 _ = V c main_v34 _
  congr 1
  funext a
  apply Fin.ext
  match a with
  | ⟨0, _⟩ => show win0_2.index t (0 : Fin 2) * 128 + 1 * (x 0).val = (k 0).val; rw [e0, hk0]; omega
  | ⟨1, _⟩ => show win0_2.index t (1 : Fin 2) * 128 + 1 * (x 1).val = (k 1).val; rw [e1, hk1]; omega

/-- The bias's block is the whole bias row. -/
theorem blk0_3_apply (c : Dev nD) (t : Fin cfg0.N) (x : S1x128.Idx) (k : S1x128.Idx)
    (hk0 : (k 0).val = (x 0).val) (hk1 : (k 1).val = (x 1).val) :
    (iblk0 (F := Ideal) V c 3 t : FVec Ideal S1x128 .f32) x = (V c main_v36 : S1x128.Idx → EReal) k := by
  obtain ⟨-, -, -, -, -, -, e0, e1, -⟩ := idx_facts0 t
  unfold iblk0
  rw [View.read_apply]
  show V c main_v36 _ = V c main_v36 _
  congr 1
  funext a
  apply Fin.ext
  match a with
  | ⟨0, _⟩ => show win0_3.index t (0 : Fin 2) * 1 + 1 * (x 0).val = (k 0).val; rw [e0, hk0]; omega
  | ⟨1, _⟩ => show win0_3.index t (1 : Fin 2) * 128 + 1 * (x 1).val = (k 1).val; rw [e1, hk1]; omega

/-- The second weight matrix's block is the whole matrix. -/
theorem blk0_4_apply (c : Dev nD) (t : Fin cfg0.N) (x : S128x128.Idx) (k : S128x128.Idx)
    (hk0 : (k 0).val = (x 0).val) (hk1 : (k 1).val = (x 1).val) :
    (iblk0 (F := Ideal) V c 4 t : FVec Ideal S128x128 .f32) x = (V c main_v35 : S128x128.Idx → EReal) k := by
  obtain ⟨-, -, -, -, -, -, -, -, e0, e1, -⟩ := idx_facts0 t
  unfold iblk0
  rw [View.read_apply]
  show V c main_v35 _ = V c main_v35 _
  congr 1
  funext a
  apply Fin.ext
  match a with
  | ⟨0, _⟩ => show win0_4.index t (0 : Fin 2) * 128 + 1 * (x 0).val = (k 0).val; rw [e0, hk0]; omega
  | ⟨1, _⟩ => show win0_4.index t (1 : Fin 2) * 128 + 1 * (x 1).val = (k 1).val; rw [e1, hk1]; omega

/-- Tile t of the reciprocal in-degrees is rows 5000 t … of the whole column. -/
theorem blk0_5_apply (c : Dev nD) (t : Fin cfg0.N) (x : S5000x1.Idx) (k : S100000x1.Idx)
    (hk0 : (k 0).val = 5000 * t.val + (x 0).val) (hk1 : (k 1).val = (x 1).val) :
    (iblk0 (F := Ideal) V c 5 t : FVec Ideal S5000x1 .f32) x = (V c main_v23 : S100000x1.Idx → EReal) k := by
  obtain ⟨-, -, -, -, -, -, -, -, -, -, e0, e1, -⟩ := idx_facts0 t
  unfold iblk0
  rw [View.read_apply]
  show V c main_v23 _ = V c main_v23 _
  congr 1
  funext a
  apply Fin.ext
  match a with
  | ⟨0, _⟩ => show win0_5.index t (0 : Fin 2) * 5000 + 1 * (x 0).val = (k 0).val; rw [e0, hk0]; omega
  | ⟨1, _⟩ => show win0_5.index t (1 : Fin 2) * 1 + 1 * (x 1).val = (k 1).val; rw [e1, hk1]; omega

/-- What tile t of the first layer writes back is tile t of the row-wise formula of the whole arrays. -/
theorem flushed0_eq
    (hpay : ∀ (v0 : FVec Ideal S5000x128 .f32) (v2 : FVec Ideal S5000x1 .f32) (v7 : FVec Ideal S5000x128 .f32)
      (v9 v12 : FVec Ideal S128x128 .f32) (v18 : FVec Ideal S1x128 .f32) (p : Fin 5000) (q : Fin 128),
      k0_pay1 (F := Ideal) v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (c : Dev nD) (t : Fin cfg0.N) :
    (dat0 (F := Ideal) V c).flushed 6 t = ((cfg0.win 6).blk t).view.read (Elt Ideal)
      (reluLayer (V c main_v33) (V c main_v23) (V c main_arg0) (V c main_v34) (V c main_v35) (V c main_v36)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, -, -, -, -, e0, e1⟩ := idx_facts0 t
  funext j
  show k0_pay1 (F := Ideal) (iblk0 V c 0 t) (iblk0 V c 5 t) (iblk0 V c 1 t) (iblk0 V c 2 t) (iblk0 V c 4 t) (iblk0 V c 3 t) j
    = reluLayer (V c main_v33) (V c main_v23) (V c main_arg0) (V c main_v34) (V c main_v35) (V c main_v36)
        (((cfg0.win 6).blk t).view.emb j)
  have hi0 : ((((cfg0.win 6).blk t).view.emb j) 0).val = 5000 * t.val + (j 0).val := by
    show win0_6.index t (0 : Fin 2) * 5000 + 1 * (j 0).val = _
    rw [e0]; omega
  have hi1 : ((((cfg0.win 6).blk t).view.emb j) 1).val = (j 1).val := by
    show win0_6.index t (1 : Fin 2) * 128 + 1 * (j 1).val = _
    rw [e1]; omega
  have key : ∀ i : S100000x128.Idx, (i 0).val = 5000 * t.val + (j 0).val → (i 1).val = (j 1).val →
      k0_pay1 (F := Ideal) (iblk0 V c 0 t) (iblk0 V c 5 t) (iblk0 V c 1 t) (iblk0 V c 2 t) (iblk0 V c 4 t) (iblk0 V c 3 t) j
        = reluLayer (V c main_v33) (V c main_v23) (V c main_arg0) (V c main_v34) (V c main_v35) (V c main_v36) i :=
    fun i h0 h1 => reluLayer_point (k0_pay1 (F := Ideal)) hpay
      (iblk0 V c 0 t) (iblk0 V c 5 t) (iblk0 V c 1 t) (iblk0 V c 2 t) (iblk0 V c 4 t) (iblk0 V c 3 t)
      (V c main_v33) (V c main_v23) (V c main_arg0) (V c main_v34) (V c main_v35) (V c main_v36)
      j (j 0) (j 1) (eq_ix2 j) i
      (fun k => blk0_0_apply V c t (ix2 (j 0) k) (ix2 (i 0) k) h0 rfl)
      (blk0_5_apply V c t (ix2 (j 0) 0) (ix2 (i 0) 0) h0 rfl)
      (fun k => blk0_1_apply V c t (ix2 (j 0) k) (ix2 (i 0) k) h0 rfl)
      (fun k => blk0_2_apply V c t (ix2 k (j 1)) (ix2 k (i 1)) rfl h1)
      (fun k => blk0_4_apply V c t (ix2 k (j 1)) (ix2 k (i 1)) rfl h1)
      (blk0_3_apply V c t (ix2 0 (j 1)) (ix2 0 (i 1)) rfl h1)
  exact key _ hi0 hi1

/-- An index of the first layer's result is in tile t iff each coordinate is in the tile's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v37).slice (win0_6.rect t)).set ↔ _
  rw [View.set_slice_whole, Rect.mem_set_unit]
  exact Iff.rfl

/-- The twenty tiles cover the result: row r is in tile r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have hlt : (i 0).val / 5000 < cfg0.N := by omega
  obtain ⟨-, -, -, -, -, -, -, -, -, -, -, -, e0, e1⟩ := idx_facts0 ⟨(i 0).val / 5000, hlt⟩
  have e0' : win0_6.index ⟨(i 0).val / 5000, hlt⟩ (0 : Fin 2) = (i 0).val / 5000 := e0
  refine ⟨⟨(i 0).val / 5000, hlt⟩, flush0_6 _, ?_⟩
  rw [mem_blk0]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0']; omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]; omega

/-- THE FIRST LAYER'S RESULT ARRAY is the row-wise formula of the whole operand arrays, at every index. -/
theorem region0_array
    (hpay : ∀ (v0 : FVec Ideal S5000x128 .f32) (v2 : FVec Ideal S5000x1 .f32) (v7 : FVec Ideal S5000x128 .f32)
      (v9 v12 : FVec Ideal S128x128 .f32) (v18 : FVec Ideal S1x128 .f32) (p : Fin 5000) (q : Fin 128),
      k0_pay1 (F := Ideal) v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (c : Dev nD) :
    (dat0 (F := Ideal) V c).arrAt 6 cfg0.N
      = reluLayer (V c main_v33) (V c main_v23) (V c main_arg0) (V c main_v34) (V c main_v35) (V c main_v36) :=
  (dat0 (F := Ideal) V c).arrAt_eq_of_cover 6
    (reluLayer (V c main_v33) (V c main_v23) (V c main_arg0) (V c main_v34) (V c main_v35) (V c main_v36))
    (fun t _ => flushed0_eq V hpay c t) cover0

/-! ## The second layer -/
/-- The index maps of the second layer's windows, over its twenty tiles: the row-tiled windows are at block (t, 0),
    the whole-array windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Tile t of the aggregated rows is rows 5000 t … of the whole array. -/
theorem blk1_0_apply (c : Dev nD) (t : Fin cfg1.N) (x : S5000x128.Idx) (k : S100000x128.Idx)
    (hk0 : (k 0).val = 5000 * t.val + (x 0).val) (hk1 : (k 1).val = (x 1).val) :
    (iblk1 (F := Ideal) V c 0 t : FVec Ideal S5000x128 .f32) x = (V c main_v48 : S100000x128.Idx → EReal) k := by
  obtain ⟨e0, e1, -⟩ := idx_facts1 t
  unfold iblk1
  rw [View.read_apply]
  show V c main_v48 _ = V c main_v48 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- Tile t of the node rows is rows 5000 t … of the whole array. -/
theorem blk1_1_apply (c : Dev nD) (t : Fin cfg1.N) (x : S5000x128.Idx) (k : S100000x128.Idx)
    (hk0 : (k 0).val = 5000 * t.val + (x 0).val) (hk1 : (k 1).val = (x 1).val) :
    (iblk1 (F := Ideal) V c 1 t : FVec Ideal S5000x128 .bf16) x = (V c main_v37 : S100000x128.Idx → EReal) k := by
  obtain ⟨-, -, e0, e1, -⟩ := idx_facts1 t
  unfold iblk1
  rw [View.read_apply]
  show V c main_v37 _ = V c main_v37 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-- The first weight matrix's block is the whole matrix. -/
theorem blk1_2_apply (c : Dev nD) (t : Fin cfg1.N) (x : S128x128.Idx) (k : S128x128.Idx)
    (hk0 : (k 0).val = (x 0).val) (hk1 : (k 1).val = (x 1).val) :
    (iblk1 (F := Ideal) V c 2 t : FVec Ideal S128x128 .f32) x = (V c main_v49 : S128x128.Idx → EReal) k := by
  obtain ⟨-, -, -, -, e0, e1, -⟩ := idx_facts1 t
  unfold iblk1
  rw [View.read_apply]
  show V c main_v49 _ = V c main_v49 _
  congr 1
  funext a
  apply Fin.ext
  match a with
  | ⟨0, _⟩ => show win1_2.index t (0 : Fin 2) * 128 + 1 * (x 0).val = (k 0).val; rw [e0, hk0]; omega
  | ⟨1, _⟩ => show win1_2.index t (1 : Fin 2) * 128 + 1 * (x 1).val = (k 1).val; rw [e1, hk1]; omega

/-- The bias's block is the whole bias row. -/
theorem blk1_3_apply (c : Dev nD) (t : Fin cfg1.N) (x : S1x128.Idx) (k : S1x128.Idx)
    (hk0 : (k 0).val = (x 0).val) (hk1 : (k 1).val = (x 1).val) :
    (iblk1 (F := Ideal) V c 3 t : FVec Ideal S1x128 .f32) x = (V c main_v51 : S1x128.Idx → EReal) k := by
  obtain ⟨-, -, -, -, -, -, e0, e1, -⟩ := idx_facts1 t
  unfold iblk1
  rw [View.read_apply]
  show V c main_v51 _ = V c main_v51 _
  congr 1
  funext a
  apply Fin.ext
  match a with
  | ⟨0, _⟩ => show win1_3.index t (0 : Fin 2) * 1 + 1 * (x 0).val = (k 0).val; rw [e0, hk0]; omega
  | ⟨1, _⟩ => show win1_3.index t (1 : Fin 2) * 128 + 1 * (x 1).val = (k 1).val; rw [e1, hk1]; omega

/-- The second weight matrix's block is the whole matrix. -/
theorem blk1_4_apply (c : Dev nD) (t : Fin cfg1.N) (x : S128x128.Idx) (k : S128x128.Idx)
    (hk0 : (k 0).val = (x 0).val) (hk1 : (k 1).val = (x 1).val) :
    (iblk1 (F := Ideal) V c 4 t : FVec Ideal S128x128 .f32) x = (V c main_v50 : S128x128.Idx → EReal) k := by
  obtain ⟨-, -, -, -, -, -, -, -, e0, e1, -⟩ := idx_facts1 t
  unfold iblk1
  rw [View.read_apply]
  show V c main_v50 _ = V c main_v50 _
  congr 1
  funext a
  apply Fin.ext
  match a with
  | ⟨0, _⟩ => show win1_4.index t (0 : Fin 2) * 128 + 1 * (x 0).val = (k 0).val; rw [e0, hk0]; omega
  | ⟨1, _⟩ => show win1_4.index t (1 : Fin 2) * 128 + 1 * (x 1).val = (k 1).val; rw [e1, hk1]; omega

/-- Tile t of the reciprocal in-degrees is rows 5000 t … of the whole column. -/
theorem blk1_5_apply (c : Dev nD) (t : Fin cfg1.N) (x : S5000x1.Idx) (k : S100000x1.Idx)
    (hk0 : (k 0).val = 5000 * t.val + (x 0).val) (hk1 : (k 1).val = (x 1).val) :
    (iblk1 (F := Ideal) V c 5 t : FVec Ideal S5000x1 .f32) x = (V c main_v23 : S100000x1.Idx → EReal) k := by
  obtain ⟨-, -, -, -, -, -, -, -, -, -, e0, e1, -⟩ := idx_facts1 t
  unfold iblk1
  rw [View.read_apply]
  show V c main_v23 _ = V c main_v23 _
  congr 1
  funext a
  apply Fin.ext
  match a with
  | ⟨0, _⟩ => show win1_5.index t (0 : Fin 2) * 5000 + 1 * (x 0).val = (k 0).val; rw [e0, hk0]; omega
  | ⟨1, _⟩ => show win1_5.index t (1 : Fin 2) * 1 + 1 * (x 1).val = (k 1).val; rw [e1, hk1]; omega

/-- What tile t of the second layer writes back is tile t of the row-wise formula of the whole arrays. -/
theorem flushed1_eq
    (hpay : ∀ (v0 : FVec Ideal S5000x128 .f32) (v2 : FVec Ideal S5000x1 .f32) (v7 : FVec Ideal S5000x128 .bf16)
      (v9 v12 : FVec Ideal S128x128 .f32) (v18 : FVec Ideal S1x128 .f32) (p : Fin 5000) (q : Fin 128),
      k1_pay1 (F := Ideal) v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (c : Dev nD) (t : Fin cfg1.N) :
    (dat1 (F := Ideal) V c).flushed 6 t = ((cfg1.win 6).blk t).view.read (Elt Ideal)
      (reluLayer (V c main_v48) (V c main_v23) (V c main_v37) (V c main_v49) (V c main_v50) (V c main_v51)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, -, -, -, -, e0, e1⟩ := idx_facts1 t
  funext j
  show k1_pay1 (F := Ideal) (iblk1 V c 0 t) (iblk1 V c 5 t) (iblk1 V c 1 t) (iblk1 V c 2 t) (iblk1 V c 4 t) (iblk1 V c 3 t) j
    = reluLayer (V c main_v48) (V c main_v23) (V c main_v37) (V c main_v49) (V c main_v50) (V c main_v51)
        (((cfg1.win 6).blk t).view.emb j)
  have hi0 : ((((cfg1.win 6).blk t).view.emb j) 0).val = 5000 * t.val + (j 0).val := by
    show win1_6.index t (0 : Fin 2) * 5000 + 1 * (j 0).val = _
    rw [e0]; omega
  have hi1 : ((((cfg1.win 6).blk t).view.emb j) 1).val = (j 1).val := by
    show win1_6.index t (1 : Fin 2) * 128 + 1 * (j 1).val = _
    rw [e1]; omega
  have key : ∀ i : S100000x128.Idx, (i 0).val = 5000 * t.val + (j 0).val → (i 1).val = (j 1).val →
      k1_pay1 (F := Ideal) (iblk1 V c 0 t) (iblk1 V c 5 t) (iblk1 V c 1 t) (iblk1 V c 2 t) (iblk1 V c 4 t) (iblk1 V c 3 t) j
        = reluLayer (V c main_v48) (V c main_v23) (V c main_v37) (V c main_v49) (V c main_v50) (V c main_v51) i :=
    fun i h0 h1 => reluLayer_point (k1_pay1 (F := Ideal)) hpay
      (iblk1 V c 0 t) (iblk1 V c 5 t) (iblk1 V c 1 t) (iblk1 V c 2 t) (iblk1 V c 4 t) (iblk1 V c 3 t)
      (V c main_v48) (V c main_v23) (V c main_v37) (V c main_v49) (V c main_v50) (V c main_v51)
      j (j 0) (j 1) (eq_ix2 j) i
      (fun k => blk1_0_apply V c t (ix2 (j 0) k) (ix2 (i 0) k) h0 rfl)
      (blk1_5_apply V c t (ix2 (j 0) 0) (ix2 (i 0) 0) h0 rfl)
      (fun k => blk1_1_apply V c t (ix2 (j 0) k) (ix2 (i 0) k) h0 rfl)
      (fun k => blk1_2_apply V c t (ix2 k (j 1)) (ix2 k (i 1)) rfl h1)
      (fun k => blk1_4_apply V c t (ix2 k (j 1)) (ix2 k (i 1)) rfl h1)
      (blk1_3_apply V c t (ix2 0 (j 1)) (ix2 0 (i 1)) rfl h1)
  exact key _ hi0 hi1

/-- An index of the second layer's result is in tile t iff each coordinate is in the tile's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v52).slice (win1_6.rect t)).set ↔ _
  rw [View.set_slice_whole, Rect.mem_set_unit]
  exact Iff.rfl

/-- The twenty tiles cover the result: row r is in tile r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have hlt : (i 0).val / 5000 < cfg1.N := by omega
  obtain ⟨-, -, -, -, -, -, -, -, -, -, -, -, e0, e1⟩ := idx_facts1 ⟨(i 0).val / 5000, hlt⟩
  have e0' : win1_6.index ⟨(i 0).val / 5000, hlt⟩ (0 : Fin 2) = (i 0).val / 5000 := e0
  refine ⟨⟨(i 0).val / 5000, hlt⟩, flush1_6 _, ?_⟩
  rw [mem_blk1]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0']; omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    rw [e1]; omega

/-- THE SECOND LAYER'S RESULT ARRAY is the row-wise formula of the whole operand arrays, at every index. -/
theorem region1_array
    (hpay : ∀ (v0 : FVec Ideal S5000x128 .f32) (v2 : FVec Ideal S5000x1 .f32) (v7 : FVec Ideal S5000x128 .bf16)
      (v9 v12 : FVec Ideal S128x128 .f32) (v18 : FVec Ideal S1x128 .f32) (p : Fin 5000) (q : Fin 128),
      k1_pay1 (F := Ideal) v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (c : Dev nD) :
    (dat1 (F := Ideal) V c).arrAt 6 cfg1.N
      = reluLayer (V c main_v48) (V c main_v23) (V c main_v37) (V c main_v49) (V c main_v50) (V c main_v51) :=
  (dat1 (F := Ideal) V c).arrAt_eq_of_cover 6
    (reluLayer (V c main_v48) (V c main_v23) (V c main_v37) (V c main_v49) (V c main_v50) (V c main_v51))
    (fun t _ => flushed1_eq V hpay c t) cover1

/-! ## The third layer -/

/-- The last layer's row-wise formula over whole arrays: entry (n, q) is entry q of the log-softmax of the two dense
    formulas of row n of the aggregated rows x, the reciprocal in-degree s at n, row n of the node rows a, the two
    columns of the two weight matrices and the two entries of the bias. -/
def lsmLayer (x : S100000x128.Idx → EReal) (s : S100000x1.Idx → EReal) (a : S100000x128.Idx → EReal)
    (wl wr : S128x2.Idx → EReal) (b : S1x2.Idx → EReal) : S100000x2.Idx → EReal :=
  fun i => Cert.Spec.lsm (fun q' => Cert.Spec.dense (fun k => x (ix2 (i 0) k)) (s (ix2 (i 0) 0)) (fun k => a (ix2 (i 0) k))
    (fun k => wl (ix2 k q')) (fun k => wr (ix2 k q')) (b (ix2 0 q'))) (i 1)

/-- One position of one tile: if the tile's blocks read the whole arrays at row (i 0), and the position's column is
    (i 1), the body's value at (p, q) is the row-wise formula at i. -/
theorem lsmLayer_point
    (pay : FVec Ideal S5000x128 .f32 → FVec Ideal S5000x1 .f32 → FVec Ideal S5000x128 .f32 → FVec Ideal S128x2 .f32 →
      FVec Ideal S128x2 .f32 → FVec Ideal S1x2 .f32 → S5000x2.Idx → EReal)
    (hpay : ∀ (v0 : FVec Ideal S5000x128 .f32) (v2 : FVec Ideal S5000x1 .f32) (v7 : FVec Ideal S5000x128 .f32)
      (v9 v12 : FVec Ideal S128x2 .f32) (v18 : FVec Ideal S1x2 .f32) (p : Fin 5000) (q : Fin 2),
      pay v0 v2 v7 v9 v12 v18 (ix2 p q) = Cert.Spec.lsm (fun q' => Cert.Spec.dense (fun k => v0 (ix2 p k)) (v2 (ix2 p 0))
        (fun k => v7 (ix2 p k)) (fun k => v9 (ix2 k q')) (fun k => v12 (ix2 k q')) (v18 (ix2 0 q'))) q)
    (x0 : FVec Ideal S5000x128 .f32) (x5 : FVec Ideal S5000x1 .f32) (x1 : FVec Ideal S5000x128 .f32)
    (x2 x4 : FVec Ideal S128x2 .f32) (x3 : FVec Ideal S1x2 .f32)
    (A0 : S100000x128.Idx → EReal) (A5 : S100000x1.Idx → EReal) (A1 : S100000x128.Idx → EReal)
    (A2 A4 : S128x2.Idx → EReal) (A3 : S1x2.Idx → EReal)
    (j : S5000x2.Idx) (p : Fin 5000) (q : Fin 2) (hj : j = ix2 p q) (i : S100000x2.Idx)
    (h0 : ∀ k : Fin 128, x0 (ix2 p k) = A0 (ix2 (i 0) k)) (h5 : x5 (ix2 p 0) = A5 (ix2 (i 0) 0))
    (h1 : ∀ k : Fin 128, x1 (ix2 p k) = A1 (ix2 (i 0) k))
    (h2 : ∀ (k : Fin 128) (q' : Fin 2), x2 (ix2 k q') = A2 (ix2 k q'))
    (h4 : ∀ (k : Fin 128) (q' : Fin 2), x4 (ix2 k q') = A4 (ix2 k q'))
    (h3 : ∀ q' : Fin 2, x3 (ix2 0 q') = A3 (ix2 0 q'))
    (hq : (i 1).val = q.val) :
    pay x0 x5 x1 x2 x4 x3 j = lsmLayer A0 A5 A1 A2 A4 A3 i := by
  subst hj
  obtain rfl : q = i 1 := Fin.ext hq.symm
  refine (hpay x0 x5 x1 x2 x4 x3 p (i 1)).trans ?_
  unfold lsmLayer
  simp only [h0, h5, h1, h2, h4, h3]

/-- The index maps of the third layer's windows, over its twenty tiles: the row-tiled windows are at block (t, 0),
    the whole-array windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Tile t of the aggregated rows is rows 5000 t … of the whole array. -/
theorem blk2_0_apply (c : Dev nD) (t : Fin cfg2.N) (x : S5000x128.Idx) (k : S100000x128.Idx)
    (hk0 : (k 0).val = 5000 * t.val + (x 0).val) (hk1 : (k 1).val = (x 1).val) :
    (iblk2 (F := Ideal) V c 0 t : FVec Ideal S5000x128 .f32) x = (V c main_v63 : S100000x128.Idx → EReal) k := by
  have e0 := (idx_facts2 t).1
  have e1 := (idx_facts2 t).2.1
  unfold iblk2
  rw [View.read_apply]
  show V c main_v63 _ = V c main_v63 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Tile t of the node rows is rows 5000 t … of the whole array. -/
theorem blk2_1_apply (c : Dev nD) (t : Fin cfg2.N) (x : S5000x128.Idx) (k : S100000x128.Idx)
    (hk0 : (k 0).val = 5000 * t.val + (x 0).val) (hk1 : (k 1).val = (x 1).val) :
    (iblk2 (F := Ideal) V c 1 t : FVec Ideal S5000x128 .bf16) x = (V c main_v52 : S100000x128.Idx → EReal) k := by
  have e0 := (idx_facts2 t).2.2.1
  have e1 := (idx_facts2 t).2.2.2.1
  unfold iblk2
  rw [View.read_apply]
  show V c main_v52 _ = V c main_v52 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The first weight matrix's block is the whole matrix. -/
theorem blk2_2_apply (c : Dev nD) (t : Fin cfg2.N) (x : S128x2.Idx) (k : S128x2.Idx)
    (hk0 : (k 0).val = (x 0).val) (hk1 : (k 1).val = (x 1).val) :
    (iblk2 (F := Ideal) V c 2 t : FVec Ideal S128x2 .f32) x = (V c main_v64 : S128x2.Idx → EReal) k := by
  have e0 := (idx_facts2 t).2.2.2.2.1
  have e1 := (idx_facts2 t).2.2.2.2.2.1
  unfold iblk2
  rw [View.read_apply]
  show V c main_v64 _ = V c main_v64 _
  congr 1
  funext a
  apply Fin.ext
  match a with
  | ⟨0, _⟩ => show win2_2.index t (0 : Fin 2) * 128 + 1 * (x 0).val = (k 0).val; rw [e0, hk0]; omega
  | ⟨1, _⟩ => show win2_2.index t (1 : Fin 2) * 2 + 1 * (x 1).val = (k 1).val; rw [e1, hk1]; omega

/-- The bias's block is the whole bias row. -/
theorem blk2_3_apply (c : Dev nD) (t : Fin cfg2.N) (x : S1x2.Idx) (k : S1x2.Idx)
    (hk0 : (k 0).val = (x 0).val) (hk1 : (k 1).val = (x 1).val) :
    (iblk2 (F := Ideal) V c 3 t : FVec Ideal S1x2 .f32) x = (V c main_v66 : S1x2.Idx → EReal) k := by
  have e0 := (idx_facts2 t).2.2.2.2.2.2.1
  have e1 := (idx_facts2 t).2.2.2.2.2.2.2.1
  unfold iblk2
  rw [View.read_apply]
  show V c main_v66 _ = V c main_v66 _
  congr 1
  funext a
  apply Fin.ext
  match a with
  | ⟨0, _⟩ => show win2_3.index t (0 : Fin 2) * 1 + 1 * (x 0).val = (k 0).val; rw [e0, hk0]; omega
  | ⟨1, _⟩ => show win2_3.index t (1 : Fin 2) * 2 + 1 * (x 1).val = (k 1).val; rw [e1, hk1]; omega

/-- The second weight matrix's block is the whole matrix. -/
theorem blk2_4_apply (c : Dev nD) (t : Fin cfg2.N) (x : S128x2.Idx) (k : S128x2.Idx)
    (hk0 : (k 0).val = (x 0).val) (hk1 : (k 1).val = (x 1).val) :
    (iblk2 (F := Ideal) V c 4 t : FVec Ideal S128x2 .f32) x = (V c main_v65 : S128x2.Idx → EReal) k := by
  have e0 := (idx_facts2 t).2.2.2.2.2.2.2.2.1
  have e1 := (idx_facts2 t).2.2.2.2.2.2.2.2.2.1
  unfold iblk2
  rw [View.read_apply]
  show V c main_v65 _ = V c main_v65 _
  congr 1
  funext a
  apply Fin.ext
  match a with
  | ⟨0, _⟩ => show win2_4.index t (0 : Fin 2) * 128 + 1 * (x 0).val = (k 0).val; rw [e0, hk0]; omega
  | ⟨1, _⟩ => show win2_4.index t (1 : Fin 2) * 2 + 1 * (x 1).val = (k 1).val; rw [e1, hk1]; omega

/-- Tile t of the reciprocal in-degrees is rows 5000 t … of the whole column. -/
theorem blk2_5_apply (c : Dev nD) (t : Fin cfg2.N) (x : S5000x1.Idx) (k : S100000x1.Idx)
    (hk0 : (k 0).val = 5000 * t.val + (x 0).val) (hk1 : (k 1).val = (x 1).val) :
    (iblk2 (F := Ideal) V c 5 t : FVec Ideal S5000x1 .f32) x = (V c main_v23 : S100000x1.Idx → EReal) k := by
  have e0 := (idx_facts2 t).2.2.2.2.2.2.2.2.2.2.1
  have e1 := (idx_facts2 t).2.2.2.2.2.2.2.2.2.2.2.1
  unfold iblk2
  rw [View.read_apply]
  show V c main_v23 _ = V c main_v23 _
  congr 1
  funext a
  apply Fin.ext
  match a with
  | ⟨0, _⟩ => show win2_5.index t (0 : Fin 2) * 5000 + 1 * (x 0).val = (k 0).val; rw [e0, hk0]; omega
  | ⟨1, _⟩ => show win2_5.index t (1 : Fin 2) * 1 + 1 * (x 1).val = (k 1).val; rw [e1, hk1]; omega

/-- What tile t of the third layer writes back is tile t of the row-wise formula of the whole arrays. -/
theorem flushed2_eq
    (hpay : ∀ (v0 : FVec Ideal S5000x128 .f32) (v2 : FVec Ideal S5000x1 .f32) (v7 : FVec Ideal S5000x128 .bf16)
      (v9 v12 : FVec Ideal S128x2 .f32) (v18 : FVec Ideal S1x2 .f32) (p : Fin 5000) (q : Fin 2),
      k2_pay1 (F := Ideal) v0 v2 v7 v9 v12 v18 (ix2 p q) = Cert.Spec.lsm (fun q' => Cert.Spec.dense (fun k => v0 (ix2 p k)) (v2 (ix2 p 0))
        (fun k => v7 (ix2 p k)) (fun k => v9 (ix2 k q')) (fun k => v12 (ix2 k q')) (v18 (ix2 0 q'))) q)
    (c : Dev nD) (t : Fin cfg2.N) :
    (dat2 (F := Ideal) V c).flushed 6 t = ((cfg2.win 6).blk t).view.read (Elt Ideal)
      (lsmLayer (V c main_v63) (V c main_v23) (V c main_v52) (V c main_v64) (V c main_v65) (V c main_v66)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x2) hz, View.ld_unit_zero (S := S1x2) hz]
  have e0 := (idx_facts2 t).2.2.2.2.2.2.2.2.2.2.2.2.1
  have e1 := (idx_facts2 t).2.2.2.2.2.2.2.2.2.2.2.2.2
  funext j
  show k2_pay1 (F := Ideal) (iblk2 V c 0 t) (iblk2 V c 5 t) (iblk2 V c 1 t) (iblk2 V c 2 t) (iblk2 V c 4 t) (iblk2 V c 3 t) j
    = lsmLayer (V c main_v63) (V c main_v23) (V c main_v52) (V c main_v64) (V c main_v65) (V c main_v66)
        (((cfg2.win 6).blk t).view.emb j)
  have hi0 : ((((cfg2.win 6).blk t).view.emb j) 0).val = 5000 * t.val + (j 0).val := by
    show win2_6.index t (0 : Fin 2) * 5000 + 1 * (j 0).val = _
    rw [e0]; omega
  have hi1 : ((((cfg2.win 6).blk t).view.emb j) 1).val = (j 1).val := by
    show win2_6.index t (1 : Fin 2) * 2 + 1 * (j 1).val = _
    rw [e1]; omega
  have key : ∀ i : S100000x2.Idx, (i 0).val = 5000 * t.val + (j 0).val → (i 1).val = (j 1).val →
      k2_pay1 (F := Ideal) (iblk2 V c 0 t) (iblk2 V c 5 t) (iblk2 V c 1 t) (iblk2 V c 2 t) (iblk2 V c 4 t) (iblk2 V c 3 t) j
        = lsmLayer (V c main_v63) (V c main_v23) (V c main_v52) (V c main_v64) (V c main_v65) (V c main_v66) i :=
    fun i h0 h1 => lsmLayer_point (k2_pay1 (F := Ideal)) hpay
      (iblk2 V c 0 t) (iblk2 V c 5 t) (iblk2 V c 1 t) (iblk2 V c 2 t) (iblk2 V c 4 t) (iblk2 V c 3 t)
      (V c main_v63) (V c main_v23) (V c main_v52) (V c main_v64) (V c main_v65) (V c main_v66)
      j (j 0) (j 1) (eq_ix2 j) i
      (fun k => blk2_0_apply V c t (ix2 (j 0) k) (ix2 (i 0) k) h0 rfl)
      (blk2_5_apply V c t (ix2 (j 0) 0) (ix2 (i 0) 0) h0 rfl)
      (fun k => blk2_1_apply V c t (ix2 (j 0) k) (ix2 (i 0) k) h0 rfl)
      (fun k q' => blk2_2_apply V c t (ix2 k q') (ix2 k q') rfl rfl)
      (fun k q' => blk2_4_apply V c t (ix2 k q') (ix2 k q') rfl rfl)
      (fun q' => blk2_3_apply V c t (ix2 0 q') (ix2 0 q') rfl rfl)
      h1
  exact key _ hi0 hi1

/-- An index of the third layer's result is in tile t iff each coordinate is in the tile's range on its axis. -/
theorem mem_blk2 (t : Fin cfg2.N) (i : S100000x2.Idx) :
    i ∈ ((cfg2.win 6).blk t).view.set ↔ ∀ a : Fin 2, win2_6.index t a * S5000x2.size a ≤ (i a).val
      ∧ (i a).val < win2_6.index t a * S5000x2.size a + S5000x2.size a := by
  show i ∈ ((View.whole main_v67).slice (win2_6.rect t)).set ↔ _
  rw [View.set_slice_whole, Rect.mem_set_unit]
  exact Iff.rfl

/-- The twenty tiles cover the result: row r is in tile r / 5000. -/
theorem cover2 (i : S100000x2.Idx) :
    ∃ t : Fin cfg2.N, (cfg2.win 6).flush t = true ∧ i ∈ ((cfg2.win 6).blk t).view.set := by
  have hi0 : (i 0).val < 100000 := (i 0).isLt
  have hi1 : (i 1).val < 2 := (i 1).isLt
  have hN : cfg2.N = 20 := N_2
  have hlt : (i 0).val / 5000 < cfg2.N := by omega
  have e0 : win2_6.index ⟨(i 0).val / 5000, hlt⟩ (0 : Fin 2) = (i 0).val / 5000 :=
    (idx_facts2 ⟨(i 0).val / 5000, hlt⟩).2.2.2.2.2.2.2.2.2.2.2.2.1
  have e1 := (idx_facts2 ⟨(i 0).val / 5000, hlt⟩).2.2.2.2.2.2.2.2.2.2.2.2.2
  refine ⟨⟨(i 0).val / 5000, hlt⟩, flush2_6 _, ?_⟩
  rw [mem_blk2]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e0]; omega
  | ⟨1, _⟩ =>
    show win2_6.index ⟨(i 0).val / 5000, hlt⟩ (1 : Fin 2) * 2 ≤ (i 1).val
      ∧ (i 1).val < win2_6.index ⟨(i 0).val / 5000, hlt⟩ (1 : Fin 2) * 2 + 2
    rw [e1]; omega

/-- THE THIRD LAYER'S RESULT ARRAY is the row-wise formula of the whole operand arrays, at every index. -/
theorem region2_array
    (hpay : ∀ (v0 : FVec Ideal S5000x128 .f32) (v2 : FVec Ideal S5000x1 .f32) (v7 : FVec Ideal S5000x128 .bf16)
      (v9 v12 : FVec Ideal S128x2 .f32) (v18 : FVec Ideal S1x2 .f32) (p : Fin 5000) (q : Fin 2),
      k2_pay1 (F := Ideal) v0 v2 v7 v9 v12 v18 (ix2 p q) = Cert.Spec.lsm (fun q' => Cert.Spec.dense (fun k => v0 (ix2 p k)) (v2 (ix2 p 0))
        (fun k => v7 (ix2 p k)) (fun k => v9 (ix2 k q')) (fun k => v12 (ix2 k q')) (v18 (ix2 0 q'))) q)
    (c : Dev nD) :
    (dat2 (F := Ideal) V c).arrAt 6 cfg2.N
      = lsmLayer (V c main_v63) (V c main_v23) (V c main_v52) (V c main_v64) (V c main_v65) (V c main_v66) :=
  (dat2 (F := Ideal) V c).arrAt_eq_of_cover 6
    (lsmLayer (V c main_v63) (V c main_v23) (V c main_v52) (V c main_v64) (V c main_v65) (V c main_v66))
    (fun t _ => flushed2_eq V hpay c t) cover2

end Blocks

/-! ## The three result arrays, index by index -/

/-- The first layer's result array, index by index. -/
theorem region0_value
    (hpay : ∀ (v0 : FVec Ideal S5000x128 .f32) (v2 : FVec Ideal S5000x1 .f32) (v7 : FVec Ideal S5000x128 .f32)
      (v9 v12 : FVec Ideal S128x128 .f32) (v18 : FVec Ideal S1x128 .f32) (p : Fin 5000) (q : Fin 128),
      k0_pay1 (F := Ideal) v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (V : (c : Dev nD) → (b : Ref sig .tc) → Buf (Elt Ideal) ((c : Thread nD τ).loc b)) (c : Dev nD) :
    (Gen.dat0 (F := Ideal) V c).arrAt 6 cfg0.N
      = fun i : S100000x128.Idx => max (Cert.Spec.dense (fun k => V c main_v33 (ix2 (i 0) k)) (V c main_v23 (ix2 (i 0) 0))
          (fun k => V c main_arg0 (ix2 (i 0) k)) (fun k => V c main_v34 (ix2 k (i 1))) (fun k => V c main_v35 (ix2 k (i 1)))
          (V c main_v36 (ix2 0 (i 1)))) 0 :=
  region0_array V hpay c

/-- The second layer's result array, index by index. -/
theorem region1_value
    (hpay : ∀ (v0 : FVec Ideal S5000x128 .f32) (v2 : FVec Ideal S5000x1 .f32) (v7 : FVec Ideal S5000x128 .bf16)
      (v9 v12 : FVec Ideal S128x128 .f32) (v18 : FVec Ideal S1x128 .f32) (p : Fin 5000) (q : Fin 128),
      k1_pay1 (F := Ideal) v0 v2 v7 v9 v12 v18 (ix2 p q) = max (Cert.Spec.dense (fun k => v0 (ix2 p k)) (v2 (ix2 p 0)) (fun k => v7 (ix2 p k))
        (fun k => v9 (ix2 k q)) (fun k => v12 (ix2 k q)) (v18 (ix2 0 q))) 0)
    (V : (c : Dev nD) → (b : Ref sig .tc) → Buf (Elt Ideal) ((c : Thread nD τ).loc b)) (c : Dev nD) :
    (Gen.dat1 (F := Ideal) V c).arrAt 6 cfg1.N
      = fun i : S100000x128.Idx => max (Cert.Spec.dense (fun k => V c main_v48 (ix2 (i 0) k)) (V c main_v23 (ix2 (i 0) 0))
          (fun k => V c main_v37 (ix2 (i 0) k)) (fun k => V c main_v49 (ix2 k (i 1))) (fun k => V c main_v50 (ix2 k (i 1)))
          (V c main_v51 (ix2 0 (i 1)))) 0 :=
  region1_array V hpay c

/-- The third layer's result array, index by index. -/
theorem region2_value
    (hpay : ∀ (v0 : FVec Ideal S5000x128 .f32) (v2 : FVec Ideal S5000x1 .f32) (v7 : FVec Ideal S5000x128 .bf16)
      (v9 v12 : FVec Ideal S128x2 .f32) (v18 : FVec Ideal S1x2 .f32) (p : Fin 5000) (q : Fin 2),
      k2_pay1 (F := Ideal) v0 v2 v7 v9 v12 v18 (ix2 p q) = Cert.Spec.lsm (fun q' => Cert.Spec.dense (fun k => v0 (ix2 p k)) (v2 (ix2 p 0))
        (fun k => v7 (ix2 p k)) (fun k => v9 (ix2 k q')) (fun k => v12 (ix2 k q')) (v18 (ix2 0 q'))) q)
    (V : (c : Dev nD) → (b : Ref sig .tc) → Buf (Elt Ideal) ((c : Thread nD τ).loc b)) (c : Dev nD) :
    (Gen.dat2 (F := Ideal) V c).arrAt 6 cfg2.N
      = fun i : S100000x2.Idx => Cert.Spec.lsm (fun q' => Cert.Spec.dense (fun k => V c main_v63 (ix2 (i 0) k)) (V c main_v23 (ix2 (i 0) 0))
          (fun k => V c main_v52 (ix2 (i 0) k)) (fun k => V c main_v64 (ix2 k q')) (fun k => V c main_v65 (ix2 k q'))
          (V c main_v66 (ix2 0 q'))) (i 1) :=
  region2_array V hpay c

end Cert.KernelIdeal.RegionValue
-- ==== Proof.RefDense.lean ====
/-
  The reference program read at one entry of each layer's result, over the extended reals.

  Each of the three layers takes a node's row of segment sums `a`, scales it by the node's reciprocal in-degree `s`,
  multiplies by a weight matrix, adds a bias and the node's own row `h` times a second weight matrix. Read at node `n`
  and output feature `j` this is `(Σₖ (aₖ·s)·Wl[j,k] + b[j]) + Σₖ hₖ·Wr[j,k]`, which is the specification's
  `(Σₖ (aₖ·s)·Wl[j,k] + Σₖ hₖ·Wr[j,k]) + b[j]` by commutativity of the sum. The first two layers end in `max · 0`,
  the third in the log-softmax of its two logits: their maximum `M` (a fold of `max` from −∞ over the two lanes,
  then one more `max` against −∞, both of which leave `max z₀ z₁`), the differences `z − M`, and the logarithm of
  the sum of their exponentials (a sum started from 0). The segment sums and the reciprocal degree stay opaque
  functions of the arguments.
-/
import proofs.«146305_j81870666596807_2_alg».proof.Proof.RefReadP
import proofs.«146305_j81870666596807_2_alg».proof.Proof.Spec
import Idealize.ShloMosaic.Lib.ValueIdx
import Idealize.ShloMosaic.PureOps.Ideal.Laws

noncomputable section

namespace Cert.ReferenceIdeal.RefDense

open Cert.ReferenceIdeal Cert.ReferenceIdeal.Gen Idealize.ShloMosaic Idealize.ShloMosaic.ValueIdx

/-- Two rank-2 indices with equal coordinates are equal. -/
local macro "idx_eq2" : tactic =>
  `(tactic| exact funext fun a => Fin.ext (by match a with | ⟨0, _⟩ => rfl | ⟨1, _⟩ => rfl))
/-- Two rank-1 indices with equal coordinates are equal. -/
local macro "idx_eq1" : tactic =>
  `(tactic| exact funext fun a => Fin.ext (by match a with | ⟨0, _⟩ => rfl))

/-! ## The three layers before their activations -/

/-- Layer 1 before its activation, at node `n` and output feature `j`: the two matrix products read as sums over the
    128 input features, the weights entering transposed, the bias added between them. -/
theorem pre0_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x10 x11 : (⟨S1600000, .i32⟩ : BufTy).Contents (Elt Ideal)) (n : Fin 100000) (j : Fin 128) :
    ReadP.val_main_v28 (F := Ideal) x0 x1 x2 x3 x10 x11 (ix2 n j)
      = Cert.Spec.dense (fun k => ReadP.val_main_v18 (F := Ideal) x0 x10 x11 (ix2 n k))
          (ReadP.val_main_v8 (F := Ideal) x11 (ix2 n (0 : Fin 1)))
          (fun k => x0 (ix2 n k)) (fun k => x1 (ix2 j k)) (fun k => x3 (ix2 j k)) (x2 (ix1 j)) := by
  have hA : ReadP.val_main_v22 (F := Ideal) x0 x1 x10 x11 (ix2 n j)
      = ∑ k : Fin 128, (ReadP.val_main_v18 (F := Ideal) x0 x10 x11 (ix2 n k)
          * ReadP.val_main_v8 (F := Ideal) x11 (ix2 n (0 : Fin 1))) * x1 (ix2 j k) := by
    rw [ReadP.val_main_v22_apply]
    refine Finset.sum_congr rfl fun k _ => ?_
    rw [ReadP.val_main_v20_apply, Ideal.mulf_def, ReadP.val_main_v19_apply, ReadP.val_main_v21_apply,
      show ReadP.lidx_main_v22 (ix2 n j) k = ix2 n k from by idx_eq2,
      show ReadP.idx_main_v19 (ix2 n k) = ix2 n (0 : Fin 1) from by idx_eq2,
      show ReadP.idx_main_v21 (ReadP.ridx_main_v22 (ix2 n j) k) = ix2 j k from by idx_eq2]
  have hB : ReadP.val_main_v24 (F := Ideal) x2 (ix2 n j) = x2 (ix1 j) := by
    rw [ReadP.val_main_v24_apply, ReadP.val_main_v23_apply,
      show ReadP.idx_main_v23 (ReadP.idx_main_v24 (ix2 n j)) = ix1 j from by idx_eq1]
  have hH : ReadP.val_main_v27 (F := Ideal) x0 x3 (ix2 n j)
      = ∑ k : Fin 128, x0 (ix2 n k) * x3 (ix2 j k) := by
    rw [ReadP.val_main_v27_apply]
    refine Finset.sum_congr rfl fun k _ => ?_
    rw [ReadP.val_main_v26_apply,
      show ReadP.lidx_main_v27 (ix2 n j) k = ix2 n k from by idx_eq2,
      show ReadP.idx_main_v26 (ReadP.ridx_main_v27 (ix2 n j) k) = ix2 j k from by idx_eq2]
  rw [ReadP.val_main_v28_apply, ReadP.val_main_v25_apply, hA, hB, hH]
  simp only [Ideal.addf_def]
  unfold Cert.Spec.dense
  exact add_right_comm _ _ _

/-- Layer 2 before its activation, the same reading with layer 1's result as the node features. -/
theorem pre1_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x10 x11 : (⟨S1600000, .i32⟩ : BufTy).Contents (Elt Ideal)) (n : Fin 100000) (j : Fin 128) :
    ReadP.val_main_v49 (F := Ideal) x0 x1 x2 x3 x4 x5 x6 x10 x11 (ix2 n j)
      = Cert.Spec.dense (fun k => ReadP.val_main_v39 (F := Ideal) x0 x1 x2 x3 x10 x11 (ix2 n k))
          (ReadP.val_main_v8 (F := Ideal) x11 (ix2 n (0 : Fin 1)))
          (fun k => ReadP.val_main_v29 (F := Ideal) x0 x1 x2 x3 x10 x11 (ix2 n k)) (fun k => x4 (ix2 j k)) (fun k => x6 (ix2 j k)) (x5 (ix1 j)) := by
  have hA : ReadP.val_main_v43 (F := Ideal) x0 x1 x2 x3 x4 x10 x11 (ix2 n j)
      = ∑ k : Fin 128, (ReadP.val_main_v39 (F := Ideal) x0 x1 x2 x3 x10 x11 (ix2 n k)
          * ReadP.val_main_v8 (F := Ideal) x11 (ix2 n (0 : Fin 1))) * x4 (ix2 j k) := by
    rw [ReadP.val_main_v43_apply]
    refine Finset.sum_congr rfl fun k _ => ?_
    rw [ReadP.val_main_v41_apply, Ideal.mulf_def, ReadP.val_main_v40_apply, ReadP.val_main_v42_apply,
      show ReadP.lidx_main_v43 (ix2 n j) k = ix2 n k from by idx_eq2,
      show ReadP.idx_main_v40 (ix2 n k) = ix2 n (0 : Fin 1) from by idx_eq2,
      show ReadP.idx_main_v42 (ReadP.ridx_main_v43 (ix2 n j) k) = ix2 j k from by idx_eq2]
  have hB : ReadP.val_main_v45 (F := Ideal) x5 (ix2 n j) = x5 (ix1 j) := by
    rw [ReadP.val_main_v45_apply, ReadP.val_main_v44_apply,
      show ReadP.idx_main_v44 (ReadP.idx_main_v45 (ix2 n j)) = ix1 j from by idx_eq1]
  have hH : ReadP.val_main_v48 (F := Ideal) x0 x1 x2 x3 x6 x10 x11 (ix2 n j)
      = ∑ k : Fin 128, ReadP.val_main_v29 (F := Ideal) x0 x1 x2 x3 x10 x11 (ix2 n k) * x6 (ix2 j k) := by
    rw [ReadP.val_main_v48_apply]
    refine Finset.sum_congr rfl fun k _ => ?_
    rw [ReadP.val_main_v47_apply,
      show ReadP.lidx_main_v48 (ix2 n j) k = ix2 n k from by idx_eq2,
      show ReadP.idx_main_v47 (ReadP.ridx_main_v48 (ix2 n j) k) = ix2 j k from by idx_eq2]
  rw [ReadP.val_main_v49_apply, ReadP.val_main_v46_apply, hA, hB, hH]
  simp only [Ideal.addf_def]
  unfold Cert.Spec.dense
  exact add_right_comm _ _ _

/-- Layer 3's two logits of node `n`, the same reading with layer 2's result as the node features. -/
theorem logits_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x128, .f32⟩ : BufTy).Contents (Elt Ideal)) (x8 : (⟨S2, .f32⟩ : BufTy).Contents (Elt Ideal)) (x9 : (⟨S2x128, .f32⟩ : BufTy).Contents (Elt Ideal)) (x10 x11 : (⟨S1600000, .i32⟩ : BufTy).Contents (Elt Ideal)) (n : Fin 100000) (j : Fin 2) :
    ReadP.val_main_v70 (F := Ideal) x0 x1 x2 x3 x4 x5 x6 x7 x8 x9 x10 x11 (ix2 n j)
      = Cert.Spec.dense (fun k => ReadP.val_main_v60 (F := Ideal) x0 x1 x2 x3 x4 x5 x6 x10 x11 (ix2 n k))
          (ReadP.val_main_v8 (F := Ideal) x11 (ix2 n (0 : Fin 1)))
          (fun k => ReadP.val_main_v50 (F := Ideal) x0 x1 x2 x3 x4 x5 x6 x10 x11 (ix2 n k)) (fun k => x7 (ix2 j k)) (fun k => x9 (ix2 j k)) (x8 (ix1 j)) := by
  have hA : ReadP.val_main_v64 (F := Ideal) x0 x1 x2 x3 x4 x5 x6 x7 x10 x11 (ix2 n j)
      = ∑ k : Fin 128, (ReadP.val_main_v60 (F := Ideal) x0 x1 x2 x3 x4 x5 x6 x10 x11 (ix2 n k)
          * ReadP.val_main_v8 (F := Ideal) x11 (ix2 n (0 : Fin 1))) * x7 (ix2 j k) := by
    rw [ReadP.val_main_v64_apply]
    refine Finset.sum_congr rfl fun k _ => ?_
    rw [ReadP.val_main_v62_apply, Ideal.mulf_def, ReadP.val_main_v61_apply, ReadP.val_main_v63_apply,
      show ReadP.lidx_main_v64 (ix2 n j) k = ix2 n k from by idx_eq2,
      show ReadP.idx_main_v61 (ix2 n k) = ix2 n (0 : Fin 1) from by idx_eq2,
      show ReadP.idx_main_v63 (ReadP.ridx_main_v64 (ix2 n j) k) = ix2 j k from by idx_eq2]
  have hB : ReadP.val_main_v66 (F := Ideal) x8 (ix2 n j) = x8 (ix1 j) := by
    rw [ReadP.val_main_v66_apply, ReadP.val_main_v65_apply,
      show ReadP.idx_main_v65 (ReadP.idx_main_v66 (ix2 n j)) = ix1 j from by idx_eq1]
  have hH : ReadP.val_main_v69 (F := Ideal) x0 x1 x2 x3 x4 x5 x6 x9 x10 x11 (ix2 n j)
      = ∑ k : Fin 128, ReadP.val_main_v50 (F := Ideal) x0 x1 x2 x3 x4 x5 x6 x10 x11 (ix2 n k) * x9 (ix2 j k) := by
    rw [ReadP.val_main_v69_apply]
    refine Finset.sum_congr rfl fun k _ => ?_
    rw [ReadP.val_main_v68_apply,
      show ReadP.lidx_main_v69 (ix2 n j) k = ix2 n k from by idx_eq2,
      show ReadP.idx_main_v68 (ReadP.ridx_main_v69 (ix2 n j) k) = ix2 j k from by idx_eq2]
  rw [ReadP.val_main_v70_apply, ReadP.val_main_v67_apply, hA, hB, hH]
  simp only [Ideal.addf_def]
  unfold Cert.Spec.dense
  exact add_right_comm _ _ _

/-! ## The log-softmax of the two logits -/

/-- The f32 word of −∞ is the bottom element. -/
theorem ofBits_negInf_f32 : Ideal.ofBits .f32 0xFF800000#32 = (⊥ : EReal) := by simp [Ideal.ofBits, Ideal.ieee]

/-- A fold of a commutative associative operation over two points. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- Node `n` with lane `k` put back on the reduced axis is the entry (n, k). -/
theorem lift_lane (h : (⟨2, ![100000, 2]⟩ : Shape).Reduces [1] (⟨1, ![100000]⟩ : Shape)) (n : Fin 100000)
    (k : Fin ((⟨2, ![100000, 2]⟩ : Shape).size 1)) : h.lift (ix1 n) k = ix2 n (⟨k.val, k.isLt⟩ : Fin 2) := by
  funext c; apply Fin.ext
  fin_cases c <;> rfl

/-- Started from −∞, a `max`-reduce over the two lanes of row `n` is the larger of the row's two entries. -/
theorem rowMax_apply (x : (⟨2, ![100000, 2]⟩ : Shape).Idx → Ideal .f32) (init : (⟨0, ![]⟩ : Shape).Idx → Ideal .f32)
    (h' : (⟨2, ![100000, 2]⟩ : Shape).ReducesTo [1] (⟨1, ![100000]⟩ : Shape))
    (hu : 0 < (⟨0, ![]⟩ : Shape).numel) (n : Fin 100000) (hinit : init (Shape.Idx.first hu) = (⊥ : EReal)) :
    Host.reduce FloatOps.maximumf x init h' hu (ix1 n) = max (x (ix2 n (0 : Fin 2))) (x (ix2 n (1 : Fin 2))) := by
  have h : (⟨2, ![100000, 2]⟩ : Shape).Reduces [1] (⟨1, ![100000]⟩ : Shape) := by decide
  rw [Host.reduce_eq_fold_single FloatOps.maximumf x init h' h hu, hinit]
  have hf : (x ∘ h.lift (ix1 n)) = fun k : Fin 2 => x (ix2 n k) := funext fun k => congrArg x (lift_lane h n k)
  have e := fold_univ_fin2 (FloatOps.maximumf (F := Ideal) (φ := .f32)) (⊥ : EReal) (fun k : Fin 2 => x (ix2 n k))
  refine Eq.trans (congrArg (fun f => Finset.fold (FloatOps.maximumf (F := Ideal) (φ := .f32)) (⊥ : EReal) f (Finset.univ : Finset (Fin 2))) hf) (e.trans ?_)
  show max (x (ix2 n (0 : Fin 2))) (max (x (ix2 n (1 : Fin 2))) ⊥) = _
  rw [max_eq_left (bot_le : (⊥ : EReal) ≤ x (ix2 n (1 : Fin 2)))]

/-- The row maximum the log-softmax subtracts, at node `n`: the larger of the two logits (the extra `max` against −∞ is
    the identity). -/
theorem rowMax_read (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x128, .f32⟩ : BufTy).Contents (Elt Ideal)) (x8 : (⟨S2, .f32⟩ : BufTy).Contents (Elt Ideal)) (x9 : (⟨S2x128, .f32⟩ : BufTy).Contents (Elt Ideal)) (x10 x11 : (⟨S1600000, .i32⟩ : BufTy).Contents (Elt Ideal)) (n : Fin 100000) :
    ReadP.val_main_call2_v2 (F := Ideal) x0 x1 x2 x3 x4 x5 x6 x7 x8 x9 x10 x11 (ix1 n)
      = max (ReadP.val_main_v70 (F := Ideal) x0 x1 x2 x3 x4 x5 x6 x7 x8 x9 x10 x11 (ix2 n (0 : Fin 2)))
          (ReadP.val_main_v70 (F := Ideal) x0 x1 x2 x3 x4 x5 x6 x7 x8 x9 x10 x11 (ix2 n (1 : Fin 2))) := by
  have h0 : ReadP.val_main_call2_v0 (F := Ideal) x0 x1 x2 x3 x4 x5 x6 x7 x8 x9 x10 x11 (ix1 n)
      = max (ReadP.val_main_v70 (F := Ideal) x0 x1 x2 x3 x4 x5 x6 x7 x8 x9 x10 x11 (ix2 n (0 : Fin 2)))
          (ReadP.val_main_v70 (F := Ideal) x0 x1 x2 x3 x4 x5 x6 x7 x8 x9 x10 x11 (ix2 n (1 : Fin 2))) := by
    unfold ReadP.val_main_call2_v0
    generalize ReadP.val_main_v70 (F := Ideal) x0 x1 x2 x3 x4 x5 x6 x7 x8 x9 x10 x11 = y
    exact rowMax_apply y _ reducesTo_S100000x2_S100000_d1 h_S_ n
      (by rw [ReadP.val_main_call2_cst_apply, Ideal.ofBits_def, ofBits_negInf_f32])
  rw [ReadP.val_main_call2_v2_apply, h0, ReadP.val_main_call2_v1_apply, ReadP.val_main_call2_cst_0_apply,
    Ideal.maximumf_def, Ideal.ofBits_def, ofBits_negInf_f32]
  exact max_eq_right bot_le

/-- The last stage at node `n`, lane `q`: the log-softmax of the node's two logits. -/
theorem lsm_read (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x128, .f32⟩ : BufTy).Contents (Elt Ideal)) (x8 : (⟨S2, .f32⟩ : BufTy).Contents (Elt Ideal)) (x9 : (⟨S2x128, .f32⟩ : BufTy).Contents (Elt Ideal)) (x10 x11 : (⟨S1600000, .i32⟩ : BufTy).Contents (Elt Ideal)) (n : Fin 100000) (q : Fin 2) :
    ReadP.val_main_v71 (F := Ideal) x0 x1 x2 x3 x4 x5 x6 x7 x8 x9 x10 x11 (ix2 n q)
      = Cert.Spec.lsm (fun q' => ReadP.val_main_v70 (F := Ideal) x0 x1 x2 x3 x4 x5 x6 x7 x8 x9 x10 x11 (ix2 n q')) q := by
  have hD : ∀ r : Fin 2, ReadP.val_main_call2_v5 (F := Ideal) x0 x1 x2 x3 x4 x5 x6 x7 x8 x9 x10 x11 (ix2 n r)
      = ReadP.val_main_v70 (F := Ideal) x0 x1 x2 x3 x4 x5 x6 x7 x8 x9 x10 x11 (ix2 n r)
        - max (ReadP.val_main_v70 (F := Ideal) x0 x1 x2 x3 x4 x5 x6 x7 x8 x9 x10 x11 (ix2 n (0 : Fin 2)))
            (ReadP.val_main_v70 (F := Ideal) x0 x1 x2 x3 x4 x5 x6 x7 x8 x9 x10 x11 (ix2 n (1 : Fin 2))) := by
    intro r
    rw [ReadP.val_main_call2_v5_apply, ReadP.val_main_call2_v4_apply, ReadP.val_main_call2_v3_apply,
      show ReadP.idx_main_call2_v3 (ReadP.idx_main_call2_v4 (ix2 n r)) = ix1 n from by idx_eq1,
      rowMax_read, Ideal.subf_def]
  have hS : ReadP.val_main_call2_v7 (F := Ideal) x0 x1 x2 x3 x4 x5 x6 x7 x8 x9 x10 x11 (ix1 n)
      = ∑ r : Fin 2, Ideal.exp (ReadP.val_main_v70 (F := Ideal) x0 x1 x2 x3 x4 x5 x6 x7 x8 x9 x10 x11 (ix2 n r)
        - max (ReadP.val_main_v70 (F := Ideal) x0 x1 x2 x3 x4 x5 x6 x7 x8 x9 x10 x11 (ix2 n (0 : Fin 2)))
            (ReadP.val_main_v70 (F := Ideal) x0 x1 x2 x3 x4 x5 x6 x7 x8 x9 x10 x11 (ix2 n (1 : Fin 2)))) := by
    rw [ReadP.val_main_call2_v7_apply, ReadP.val_main_call2_cst_1_apply, Ideal.ofBits_def, Ideal.ofBits_zero_f32, zero_add]
    refine Finset.sum_congr rfl fun r _ => ?_
    rw [ReadP.val_main_call2_v6_apply, Ideal.hostUnary_exp_def,
      show ReadP.idx_main_call2_v7 (ix1 n) r = ix2 n r from by idx_eq2, hD r]
  rw [ReadP.val_main_v71_apply, hD q, ReadP.val_main_call2_v10_apply, ReadP.val_main_call2_v9_apply,
    ReadP.val_main_call2_v8_apply,
    show ReadP.idx_main_call2_v8 (ReadP.idx_main_call2_v10 (ix2 n q)) = ix1 n from by idx_eq1,
    hS, Ideal.hostUnary_log_def, Ideal.subf_def]
  rfl

/-! ## The three layers -/

/-- Layer 1 at node `n`, feature `j`: its pre-activation entry against 0. -/
theorem layer0_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x10 x11 : (⟨S1600000, .i32⟩ : BufTy).Contents (Elt Ideal)) (n : Fin 100000) (j : Fin 128) :
    ReadP.val_main_v29 (F := Ideal) x0 x1 x2 x3 x10 x11 (ix2 n j)
      = max (Cert.Spec.dense (fun k => ReadP.val_main_v18 (F := Ideal) x0 x10 x11 (ix2 n k))
          (ReadP.val_main_v8 (F := Ideal) x11 (ix2 n (0 : Fin 1)))
          (fun k => x0 (ix2 n k)) (fun k => x1 (ix2 j k)) (fun k => x3 (ix2 j k)) (x2 (ix1 j))) 0 := by
  rw [ReadP.val_main_v29_apply, pre0_apply, ReadP.val_main_call0_v0_apply, ReadP.val_main_call0_cst_apply,
    Ideal.maximumf_def, Ideal.ofBits_def, Ideal.ofBits_zero_f32]

/-- Layer 2 at node `n`, feature `j`: its pre-activation entry against 0. -/
theorem layer1_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x10 x11 : (⟨S1600000, .i32⟩ : BufTy).Contents (Elt Ideal)) (n : Fin 100000) (j : Fin 128) :
    ReadP.val_main_v50 (F := Ideal) x0 x1 x2 x3 x4 x5 x6 x10 x11 (ix2 n j)
      = max (Cert.Spec.dense (fun k => ReadP.val_main_v39 (F := Ideal) x0 x1 x2 x3 x10 x11 (ix2 n k))
          (ReadP.val_main_v8 (F := Ideal) x11 (ix2 n (0 : Fin 1)))
          (fun k => ReadP.val_main_v29 (F := Ideal) x0 x1 x2 x3 x10 x11 (ix2 n k)) (fun k => x4 (ix2 j k)) (fun k => x6 (ix2 j k)) (x5 (ix1 j))) 0 := by
  rw [ReadP.val_main_v50_apply, pre1_apply, ReadP.val_main_call1_v0_apply, ReadP.val_main_call1_cst_apply,
    Ideal.maximumf_def, Ideal.ofBits_def, Ideal.ofBits_zero_f32]

/-- Layer 3 at node `n`, lane `q`: the log-softmax of the node's two logits. -/
theorem layer2_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x128, .f32⟩ : BufTy).Contents (Elt Ideal)) (x8 : (⟨S2, .f32⟩ : BufTy).Contents (Elt Ideal)) (x9 : (⟨S2x128, .f32⟩ : BufTy).Contents (Elt Ideal)) (x10 x11 : (⟨S1600000, .i32⟩ : BufTy).Contents (Elt Ideal)) (n : Fin 100000) (q : Fin 2) :
    ReadP.val_main_v71 (F := Ideal) x0 x1 x2 x3 x4 x5 x6 x7 x8 x9 x10 x11 (ix2 n q)
      = Cert.Spec.lsm (fun q' => Cert.Spec.dense (fun k => ReadP.val_main_v60 (F := Ideal) x0 x1 x2 x3 x4 x5 x6 x10 x11 (ix2 n k))
          (ReadP.val_main_v8 (F := Ideal) x11 (ix2 n (0 : Fin 1)))
          (fun k => ReadP.val_main_v50 (F := Ideal) x0 x1 x2 x3 x4 x5 x6 x10 x11 (ix2 n k)) (fun k => x7 (ix2 q' k)) (fun k => x9 (ix2 q' k)) (x8 (ix1 q'))) q := by
  rw [lsm_read]
  exact congrArg (fun z => Cert.Spec.lsm z q) (funext fun q' => logits_apply x0 x1 x2 x3 x4 x5 x6 x7 x8 x9 x10 x11 n q')

end Cert.ReferenceIdeal.RefDense

end
-- ==== Proof.Layers.lean ====
/-
  Layer by layer, the kernel's launch outputs are the reference's stages.

  Both programs compute, per layer, the same scalar formula at every entry: the neighbour sums scaled by the reciprocal
  in-degree through one weight matrix, the node's own row through the other, plus the bias (`Spec.dense`), then the
  activation. The kernel reads its edge tables through the order of a stable sort by destination; that order is a
  permutation of the edge positions, and a segment sum does not see it. The kernel adds the bias last and the reference
  adds it between the two products; addition on the extended reals is commutative and associative.
-/
import proofs.«146305_j81870666596807_2_alg».proof.Proof.Fold
import proofs.«146305_j81870666596807_2_alg».proof.Proof.SegSorted
import proofs.«146305_j81870666596807_2_alg».proof.Proof.SortPerm
import proofs.«146305_j81870666596807_2_alg».proof.Proof.DensePayload
import proofs.«146305_j81870666596807_2_alg».proof.Proof.RegionValue
import proofs.«146305_j81870666596807_2_alg».proof.Proof.RefReadP
import proofs.«146305_j81870666596807_2_alg».proof.Proof.RefDense
import Idealize.ShloMosaic.Lib.ValueLayout

set_option maxRecDepth 16384

noncomputable section

namespace Cert.Layers

open Cert.KernelIdeal Cert.KernelIdeal.Gen Cert.KernelIdeal.Chains Cert.KernelIdeal.Fold
open Idealize.ShloMosaic Idealize.ShloMosaic.TcCoe Idealize.ShloMosaic.ValueIdx Idealize.SL.Sem
open Cert.ReferenceIdeal (ReadP.val_main_v8 ReadP.val_main_v18 ReadP.val_main_v29 ReadP.val_main_v39 ReadP.val_main_v50 ReadP.val_main_v60 ReadP.val_main_v71)

/-! ## Congruence of the two scalar formulas -/

theorem dense_congr {a a' : Fin 128 → EReal} {s s' : EReal} {h h' wl wl' wr wr' : Fin 128 → EReal} {b b' : EReal}
    (ha : a = a') (hs : s = s') (hh : h = h') (hwl : wl = wl') (hwr : wr = wr') (hb : b = b') :
    Spec.dense a s h wl wr b = Spec.dense a' s' h' wl' wr' b' := by
  subst ha hs hh hwl hwr hb; rfl

/-! ## A launch's output array at one entry, at any entry contents -/

section AtAnyEntry
variable (V : (c : Dev nD) → (b : Ref sig .tc) → Buf (Elt Ideal) ((c : Thread nD τ).loc b)) (c : Dev nD)

theorem region0_apply (n : Fin 100000) (j : Fin 128) :
    (dat0 (F := Ideal) V c).arrAt 6 cfg0.N (ix2 n j)
      = max (Spec.dense (fun k => V c main_v33 (ix2 n k)) (V c main_v23 (ix2 n 0)) (fun k => V c main_arg0 (ix2 n k))
          (fun k => V c main_v34 (ix2 k j)) (fun k => V c main_v35 (ix2 k j)) (V c main_v36 (ix2 0 j))) 0 := by
  rw [RegionValue.region0_value DensePayload.pay0_apply V c]

theorem region1_apply (n : Fin 100000) (j : Fin 128) :
    (dat1 (F := Ideal) V c).arrAt 6 cfg1.N (ix2 n j)
      = max (Spec.dense (fun k => V c main_v48 (ix2 n k)) (V c main_v23 (ix2 n 0)) (fun k => V c main_v37 (ix2 n k))
          (fun k => V c main_v49 (ix2 k j)) (fun k => V c main_v50 (ix2 k j)) (V c main_v51 (ix2 0 j))) 0 := by
  rw [RegionValue.region1_value DensePayload.pay1_apply V c]

theorem region2_apply (n : Fin 100000) (q : Fin 2) :
    (dat2 (F := Ideal) V c).arrAt 6 cfg2.N (ix2 n q)
      = Spec.lsm (fun q' => Spec.dense (fun k => V c main_v63 (ix2 n k)) (V c main_v23 (ix2 n 0)) (fun k => V c main_v52 (ix2 n k))
          (fun k => V c main_v64 (ix2 k q')) (fun k => V c main_v65 (ix2 k q')) (V c main_v66 (ix2 0 q'))) q := by
  rw [RegionValue.region2_value DensePayload.pay2_apply V c]
end AtAnyEntry

variable (m : (ℓ : Loc nD τ sig) → Buf (Elt Ideal) ℓ) (ρ : Dev nD → PrngReg) (c : Dev nD)

/-! ## The irregular stages: the sorted tables give the reference's sums -/

/-- Both tables are read through one permutation of the edge positions. -/
theorem sorted_tables : ∃ σ : Equiv.Perm (Fin 1600000),
    (∀ e, dstS m c (ix1 e) = (m ((c : Thread nD τ).loc main_arg11)) (ix1 (σ e))) ∧ (∀ e, srcS m c (ix1 e) = (m ((c : Thread nD τ).loc main_arg10)) (ix1 (σ e))) := by
  obtain ⟨σ, hσ⟩ := SortPerm.exists_perm (m ((c : Thread nD τ).loc main_arg11))
  exact ⟨σ, fun e => hσ _ e, fun e => hσ _ e⟩

/-- The reciprocal in-degree column is the reference's. -/
theorem inv_eq : invOf (F := Ideal) (dstS m c) = ReadP.val_main_v8 (F := Ideal) (m ((c : Thread nD τ).loc main_arg11)) := by
  obtain ⟨σ, hd, _⟩ := sorted_tables m c
  exact (SegSorted.invOf_perm σ _ _ hd).trans rfl

/-- The first layer's neighbour sums are the reference's. -/
theorem agg0_eq : segRows (F := Ideal) (dstS m c) (rowsOf (F := Ideal) (m ((c : Thread nD τ).loc main_arg0)) (srcS m c))
    = ReadP.val_main_v18 (F := Ideal) (m ((c : Thread nD τ).loc main_arg0)) (m ((c : Thread nD τ).loc main_arg10)) (m ((c : Thread nD τ).loc main_arg11)) := by
  obtain ⟨σ, hd, hs⟩ := sorted_tables m c
  exact (SegSorted.segRows_perm σ _ _ _ _ _ hd hs).trans rfl

/-! ## The first layer -/

/-- What the first launch finds in its operand arrays, each as the reference reads it. -/
theorem V2_agg : V2 m ρ c main_v33 = ReadP.val_main_v18 (F := Ideal) (m ((c : Thread nD τ).loc main_arg0)) (m ((c : Thread nD τ).loc main_arg10)) (m ((c : Thread nD τ).loc main_arg11)) :=
  (W2_agg m ρ c).trans (agg0_eq m c)
theorem V2_inv : V2 m ρ c main_v23 = ReadP.val_main_v8 (F := Ideal) (m ((c : Thread nD τ).loc main_arg11)) :=
  (W2_inv m ρ c).trans (inv_eq m c)
theorem V2_x : V2 m ρ c main_arg0 = (m ((c : Thread nD τ).loc main_arg0)) := W2_arg0 m ρ c
theorem V2_wl (k j : Fin 128) : V2 m ρ c main_v34 (ix2 k j) = (m ((c : Thread nD τ).loc main_arg1)) (ix2 j k) := by
  rw [show V2 m ρ c main_v34 = _ from W2_wl m ρ c]
  exact transpose_ix2_apply _ _ k j
theorem V2_wr (k j : Fin 128) : V2 m ρ c main_v35 (ix2 k j) = (m ((c : Thread nD τ).loc main_arg3)) (ix2 j k) := by
  rw [show V2 m ρ c main_v35 = _ from W2_wr m ρ c]
  exact transpose_ix2_apply _ _ k j
theorem V2_b (j : Fin 128) : V2 m ρ c main_v36 (ix2 0 j) = (m ((c : Thread nD τ).loc main_arg2)) (ix1 j) := by
  rw [show V2 m ρ c main_v36 = _ from W2_b m ρ c]
  exact shapeCast_a_1a_apply _ _ 0 j

/-- The first launch's output array at one entry. -/
theorem H1_apply (n : Fin 100000) (j : Fin 128) :
    H1 m ρ c (ix2 n j) = max (Spec.dense (fun k => V2 m ρ c main_v33 (ix2 n k)) (V2 m ρ c main_v23 (ix2 n 0)) (fun k => V2 m ρ c main_arg0 (ix2 n k))
      (fun k => V2 m ρ c main_v34 (ix2 k j)) (fun k => V2 m ρ c main_v35 (ix2 k j)) (V2 m ρ c main_v36 (ix2 0 j))) 0 :=
  (congrFun (W3_arr m ρ c 6) _).trans (region0_apply (V2 m ρ) c n j)

/-- The first launch's output array is the reference's first hidden layer. -/
theorem H1_eq : H1 m ρ c = ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  funext i
  obtain ⟨n, j, rfl⟩ : ∃ (n : Fin 100000) (j : Fin 128), i = ix2 n j := ⟨i 0, i 1, eq_ix2 i⟩
  rw [H1_apply, Cert.ReferenceIdeal.RefDense.layer0_apply, V2_agg, V2_inv, V2_x]
  rw [show (fun k : Fin 128 => V2 m ρ c main_v34 (ix2 k j)) = fun k => (m ((c : Thread nD τ).loc main_arg1)) (ix2 j k) from funext fun k => V2_wl m ρ c k j,
    show (fun k : Fin 128 => V2 m ρ c main_v35 (ix2 k j)) = fun k => (m ((c : Thread nD τ).loc main_arg3)) (ix2 j k) from funext fun k => V2_wr m ρ c k j,
    V2_b]

/-! ## The second layer -/

theorem V4_agg : V4 m ρ c main_v48 = ReadP.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  obtain ⟨σ, hd, hs⟩ := sorted_tables m c
  refine (W4_agg m ρ c).trans ((SegSorted.segRowsB_perm σ _ _ _ _ _ hd hs).trans ?_)
  rw [H1_eq m ρ c]
  rfl
theorem V4_inv : V4 m ρ c main_v23 = ReadP.val_main_v8 (F := Ideal) (m ((c : Thread nD τ).loc main_arg11)) :=
  (W4_inv m ρ c).trans (inv_eq m c)
theorem V4_h : V4 m ρ c main_v37 = (ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) :=
  (W4_h m ρ c).trans (H1_eq m ρ c)
theorem V4_wl (k j : Fin 128) : V4 m ρ c main_v49 (ix2 k j) = (m ((c : Thread nD τ).loc main_arg4)) (ix2 j k) := by
  rw [show V4 m ρ c main_v49 = _ from W4_wl m ρ c]
  exact transpose_ix2_apply _ _ k j
theorem V4_wr (k j : Fin 128) : V4 m ρ c main_v50 (ix2 k j) = (m ((c : Thread nD τ).loc main_arg6)) (ix2 j k) := by
  rw [show V4 m ρ c main_v50 = _ from W4_wr m ρ c]
  exact transpose_ix2_apply _ _ k j
theorem V4_b (j : Fin 128) : V4 m ρ c main_v51 (ix2 0 j) = (m ((c : Thread nD τ).loc main_arg5)) (ix1 j) := by
  rw [show V4 m ρ c main_v51 = _ from W4_b m ρ c]
  exact shapeCast_a_1a_apply _ _ 0 j

/-- The second launch's output array at one entry. -/
theorem H2_apply (n : Fin 100000) (j : Fin 128) :
    H2 m ρ c (ix2 n j) = max (Spec.dense (fun k => V4 m ρ c main_v48 (ix2 n k)) (V4 m ρ c main_v23 (ix2 n 0)) (fun k => V4 m ρ c main_v37 (ix2 n k))
      (fun k => V4 m ρ c main_v49 (ix2 k j)) (fun k => V4 m ρ c main_v50 (ix2 k j)) (V4 m ρ c main_v51 (ix2 0 j))) 0 :=
  (congrFun (W5_arr m ρ c 6) _).trans (region1_apply (V4 m ρ) c n j)

/-- The second launch's output array is the reference's second hidden layer. -/
theorem H2_eq : H2 m ρ c = (ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11))) := by
  funext i
  obtain ⟨n, j, rfl⟩ : ∃ (n : Fin 100000) (j : Fin 128), i = ix2 n j := ⟨i 0, i 1, eq_ix2 i⟩
  rw [H2_apply, Cert.ReferenceIdeal.RefDense.layer1_apply, V4_agg, V4_inv, V4_h]
  rw [show (fun k : Fin 128 => V4 m ρ c main_v49 (ix2 k j)) = fun k => (m ((c : Thread nD τ).loc main_arg4)) (ix2 j k) from funext fun k => V4_wl m ρ c k j,
    show (fun k : Fin 128 => V4 m ρ c main_v50 (ix2 k j)) = fun k => (m ((c : Thread nD τ).loc main_arg6)) (ix2 j k) from funext fun k => V4_wr m ρ c k j,
    V4_b]

/-! ## The third layer and the log-softmax -/

theorem V6_agg : V6 m ρ c main_v63 = ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) := by
  obtain ⟨σ, hd, hs⟩ := sorted_tables m c
  refine (W6_agg m ρ c).trans ((SegSorted.segRowsB_perm σ _ _ _ _ _ hd hs).trans ?_)
  rw [H2_eq m ρ c]
  rfl
theorem V6_inv : V6 m ρ c main_v23 = ReadP.val_main_v8 (F := Ideal) (m ((c : Thread nD τ).loc main_arg11)) :=
  (W6_inv m ρ c).trans (inv_eq m c)
theorem V6_h : V6 m ρ c main_v52 = (ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11))) :=
  (W6_h m ρ c).trans (H2_eq m ρ c)
theorem V6_wl (k : Fin 128) (q : Fin 2) : V6 m ρ c main_v64 (ix2 k q) = (m ((c : Thread nD τ).loc main_arg7)) (ix2 q k) := by
  rw [show V6 m ρ c main_v64 = _ from W6_wl m ρ c]
  exact transpose_ix2_apply _ _ k q
theorem V6_wr (k : Fin 128) (q : Fin 2) : V6 m ρ c main_v65 (ix2 k q) = (m ((c : Thread nD τ).loc main_arg9)) (ix2 q k) := by
  rw [show V6 m ρ c main_v65 = _ from W6_wr m ρ c]
  exact transpose_ix2_apply _ _ k q
theorem V6_b (q : Fin 2) : V6 m ρ c main_v66 (ix2 0 q) = (m ((c : Thread nD τ).loc main_arg8)) (ix1 q) := by
  rw [show V6 m ρ c main_v66 = _ from W6_b m ρ c]
  exact shapeCast_a_1a_apply _ _ 0 q

/-- The kernel's result array at one entry. -/
theorem result_apply (n : Fin 100000) (q : Fin 2) :
    W7 m ρ c (Proc.devRef .tc main_v67) (ix2 n q)
      = Spec.lsm (fun q' => Spec.dense (fun k => V6 m ρ c main_v63 (ix2 n k)) (V6 m ρ c main_v23 (ix2 n 0)) (fun k => V6 m ρ c main_v52 (ix2 n k))
          (fun k => V6 m ρ c main_v64 (ix2 k q')) (fun k => V6 m ρ c main_v65 (ix2 k q')) (V6 m ρ c main_v66 (ix2 0 q'))) q :=
  (congrFun (W7_arr m ρ c 6) _).trans (region2_apply (V6 m ρ) c n q)

/-- The kernel's result array is the reference's result. -/
theorem result_eq : W7 m ρ c (Proc.devRef .tc main_v67) = ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨n, q, rfl⟩ : ∃ (n : Fin 100000) (q : Fin 2), i = ix2 n q := ⟨i 0, i 1, eq_ix2 i⟩
  rw [result_apply, Cert.ReferenceIdeal.RefDense.layer2_apply, V6_agg, V6_inv, V6_h]
  refine congrArg (fun z : Fin 2 → EReal => Spec.lsm z q) (funext fun q' => ?_)
  rw [show (fun k : Fin 128 => V6 m ρ c main_v64 (ix2 k q')) = fun k => (m ((c : Thread nD τ).loc main_arg7)) (ix2 q' k) from funext fun k => V6_wl m ρ c k q',
    show (fun k : Fin 128 => V6 m ρ c main_v65 (ix2 k q')) = fun k => (m ((c : Thread nD τ).loc main_arg9)) (ix2 q' k) from funext fun k => V6_wr m ρ c k q',
    V6_b]

end Cert.Layers

end
-- ==== Proof.RefRunW.lean ====
/-
  The reference program's run, read back one layer at a time.

  The program is a straight line of 103 array operations: the reciprocal in-degrees, three layers each built on the
  previous layer's output, and a log-softmax of the last. What a buffer holds after a line of operations is a fold over
  the line, and a fold over a concatenation is the fold over the second part started from the fold over the first. So
  the line is cut into four stretches at the layer boundaries. Within a stretch the contents at its start are a
  variable: the stretch's output is then the stage function of its own layer applied to whatever the earlier buffers
  hold, and an argument or an earlier layer's output, written by no operation of the stretch, is what it was. Chaining
  the four gives the result buffer as the last stage function of the twelve arguments, and every argument unchanged.
-/
import proofs.«146305_j81870666596807_2_alg».proof.Proof.Gen.ReferenceIdeal
import proofs.«146305_j81870666596807_2_alg».proof.Proof.RefReadP
import Idealize.ShloMosaic.Lib.StableHlo.Run

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- Contents moved to a buffer's own type and back are unchanged. -/
theorem ofBuf_toBuf {T : BufTy} (x : TRef sig T) (v : T.Contents (Elt F)) : x.ofBuf (x.toBuf v) = v := by
  obtain ⟨r, h, _, _⟩ := x
  subst h
  rfl

/-! ## The operations, whole and in four stretches -/

/-- All 103 operations, in order. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg11 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg10 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg10 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg10 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v16 (broadcastInDim S100000x128 ![] bcast_S_S100000x128 : (⟨S_, .f32⟩ : BufTy).Contents (Elt F) → (⟨S100000x128, .f32⟩ : BufTy).Contents (Elt F)),
    unary main_arg11 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v19 (broadcastInDim S100000x128 ![0, 1] bcast_S100000x1_S100000x128_0_1 : (⟨S100000x1, .f32⟩ : BufTy).Contents (Elt F) → (⟨S100000x128, .f32⟩ : BufTy).Contents (Elt F)),
    binary main_v18 main_v19 main_v20 (mulf : (⟨S100000x128, .f32⟩ : BufTy).Contents (Elt F) → (⟨S100000x128, .f32⟩ : BufTy).Contents (Elt F) → (⟨S100000x128, .f32⟩ : BufTy).Contents (Elt F)),
    unary main_arg1 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    unary main_arg3 main_v26 ((transpose S128x128 [1, 0] · transposes_S128x128_S128x128_1_0) : (⟨S128x128, .f32⟩ : BufTy).Contents (Elt F) → (⟨S128x128, .f32⟩ : BufTy).Contents (Elt F)),
    binary main_arg0 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf,
    nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_arg10 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_arg10 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_arg10 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_arg11 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v40 (broadcastInDim S100000x128 ![0, 1] bcast_S100000x1_S100000x128_0_1 : (⟨S100000x1, .f32⟩ : BufTy).Contents (Elt F) → (⟨S100000x128, .f32⟩ : BufTy).Contents (Elt F)),
    binary main_v39 main_v40 main_v41 (mulf : (⟨S100000x128, .f32⟩ : BufTy).Contents (Elt F) → (⟨S100000x128, .f32⟩ : BufTy).Contents (Elt F) → (⟨S100000x128, .f32⟩ : BufTy).Contents (Elt F)),
    unary main_arg4 main_v42 ((transpose S128x128 [1, 0] · transposes_S128x128_S128x128_1_0) : (⟨S128x128, .f32⟩ : BufTy).Contents (Elt F) → (⟨S128x128, .f32⟩ : BufTy).Contents (Elt F)),
    binary main_v41 main_v42 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    unary main_arg6 main_v47 ((transpose S128x128 [1, 0] · transposes_S128x128_S128x128_1_0) : (⟨S128x128, .f32⟩ : BufTy).Contents (Elt F) → (⟨S128x128, .f32⟩ : BufTy).Contents (Elt F)),
    binary main_v29 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf,
    nullary main_c_8 (constantI S_ 32 0#32),
    unary main_c_8 main_v51 (broadcastInDim S1600000 ![] bcast_S_S1600000 : (⟨S_, .i32⟩ : BufTy).Contents (Elt F) → (⟨S1600000, .i32⟩ : BufTy).Contents (Elt F)),
    binary main_arg10 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v53 (broadcastInDim S1600000 ![] bcast_S_S1600000 : (⟨S_, .i32⟩ : BufTy).Contents (Elt F) → (⟨S1600000, .i32⟩ : BufTy).Contents (Elt F)),
    binary main_arg10 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_arg10 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v58 (broadcastInDim S100000x128 ![] bcast_S_S100000x128 : (⟨S_, .f32⟩ : BufTy).Contents (Elt F) → (⟨S100000x128, .f32⟩ : BufTy).Contents (Elt F)),
    unary main_arg11 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v61 (broadcastInDim S100000x128 ![0, 1] bcast_S100000x1_S100000x128_0_1 : (⟨S100000x1, .f32⟩ : BufTy).Contents (Elt F) → (⟨S100000x128, .f32⟩ : BufTy).Contents (Elt F)),
    binary main_v60 main_v61 main_v62 (mulf : (⟨S100000x128, .f32⟩ : BufTy).Contents (Elt F) → (⟨S100000x128, .f32⟩ : BufTy).Contents (Elt F) → (⟨S100000x128, .f32⟩ : BufTy).Contents (Elt F)),
    unary main_arg7 main_v63 ((transpose S128x2 [1, 0] · transposes_S2x128_S128x2_1_0) : (⟨S2x128, .f32⟩ : BufTy).Contents (Elt F) → (⟨S128x2, .f32⟩ : BufTy).Contents (Elt F)),
    binary main_v62 main_v63 main_v64 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg8 main_v65 (broadcastInDim S1x2 ![1] bcast_S2_S1x2_1 : (⟨S2, .f32⟩ : BufTy).Contents (Elt F) → (⟨S1x2, .f32⟩ : BufTy).Contents (Elt F)),
    unary main_v65 main_v66 (broadcastInDim S100000x2 ![0, 1] bcast_S1x2_S100000x2_0_1 : (⟨S1x2, .f32⟩ : BufTy).Contents (Elt F) → (⟨S100000x2, .f32⟩ : BufTy).Contents (Elt F)),
    binary main_v64 main_v66 main_v67 (addf : (⟨S100000x2, .f32⟩ : BufTy).Contents (Elt F) → (⟨S100000x2, .f32⟩ : BufTy).Contents (Elt F) → (⟨S100000x2, .f32⟩ : BufTy).Contents (Elt F)),
    unary main_arg9 main_v68 ((transpose S128x2 [1, 0] · transposes_S2x128_S128x2_1_0) : (⟨S2x128, .f32⟩ : BufTy).Contents (Elt F) → (⟨S128x2, .f32⟩ : BufTy).Contents (Elt F)),
    binary main_v50 main_v68 main_v69 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v67 main_v69 main_v70 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call2_cst) (constant S_ .f32 0xFF800000#32),
    TRef.binary (TRef.of (T := ⟨S100000x2, .f32⟩) main_v70) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v70) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v71) subf ]

/-- The first layer's operations: the reciprocal in-degrees, then the layer up to its maximum with zero. -/
abbrev opsA : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg11 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg10 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg10 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg10 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v16 (broadcastInDim S100000x128 ![] bcast_S_S100000x128 : (⟨S_, .f32⟩ : BufTy).Contents (Elt F) → (⟨S100000x128, .f32⟩ : BufTy).Contents (Elt F)),
    unary main_arg11 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v19 (broadcastInDim S100000x128 ![0, 1] bcast_S100000x1_S100000x128_0_1 : (⟨S100000x1, .f32⟩ : BufTy).Contents (Elt F) → (⟨S100000x128, .f32⟩ : BufTy).Contents (Elt F)),
    binary main_v18 main_v19 main_v20 (mulf : (⟨S100000x128, .f32⟩ : BufTy).Contents (Elt F) → (⟨S100000x128, .f32⟩ : BufTy).Contents (Elt F) → (⟨S100000x128, .f32⟩ : BufTy).Contents (Elt F)),
    unary main_arg1 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    unary main_arg3 main_v26 ((transpose S128x128 [1, 0] · transposes_S128x128_S128x128_1_0) : (⟨S128x128, .f32⟩ : BufTy).Contents (Elt F) → (⟨S128x128, .f32⟩ : BufTy).Contents (Elt F)),
    binary main_arg0 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

/-- The second layer's operations. -/
abbrev opsB : List (HloOp τ sig (Elt F)) :=
  [ nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_arg10 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_arg10 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_arg10 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_arg11 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v40 (broadcastInDim S100000x128 ![0, 1] bcast_S100000x1_S100000x128_0_1 : (⟨S100000x1, .f32⟩ : BufTy).Contents (Elt F) → (⟨S100000x128, .f32⟩ : BufTy).Contents (Elt F)),
    binary main_v39 main_v40 main_v41 (mulf : (⟨S100000x128, .f32⟩ : BufTy).Contents (Elt F) → (⟨S100000x128, .f32⟩ : BufTy).Contents (Elt F) → (⟨S100000x128, .f32⟩ : BufTy).Contents (Elt F)),
    unary main_arg4 main_v42 ((transpose S128x128 [1, 0] · transposes_S128x128_S128x128_1_0) : (⟨S128x128, .f32⟩ : BufTy).Contents (Elt F) → (⟨S128x128, .f32⟩ : BufTy).Contents (Elt F)),
    binary main_v41 main_v42 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    unary main_arg6 main_v47 ((transpose S128x128 [1, 0] · transposes_S128x128_S128x128_1_0) : (⟨S128x128, .f32⟩ : BufTy).Contents (Elt F) → (⟨S128x128, .f32⟩ : BufTy).Contents (Elt F)),
    binary main_v29 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf ]

/-- The third layer's operations up to the bias. -/
abbrev opsC : List (HloOp τ sig (Elt F)) :=
  [ nullary main_c_8 (constantI S_ 32 0#32),
    unary main_c_8 main_v51 (broadcastInDim S1600000 ![] bcast_S_S1600000 : (⟨S_, .i32⟩ : BufTy).Contents (Elt F) → (⟨S1600000, .i32⟩ : BufTy).Contents (Elt F)),
    binary main_arg10 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v53 (broadcastInDim S1600000 ![] bcast_S_S1600000 : (⟨S_, .i32⟩ : BufTy).Contents (Elt F) → (⟨S1600000, .i32⟩ : BufTy).Contents (Elt F)),
    binary main_arg10 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_arg10 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v58 (broadcastInDim S100000x128 ![] bcast_S_S100000x128 : (⟨S_, .f32⟩ : BufTy).Contents (Elt F) → (⟨S100000x128, .f32⟩ : BufTy).Contents (Elt F)),
    unary main_arg11 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v61 (broadcastInDim S100000x128 ![0, 1] bcast_S100000x1_S100000x128_0_1 : (⟨S100000x1, .f32⟩ : BufTy).Contents (Elt F) → (⟨S100000x128, .f32⟩ : BufTy).Contents (Elt F)),
    binary main_v60 main_v61 main_v62 (mulf : (⟨S100000x128, .f32⟩ : BufTy).Contents (Elt F) → (⟨S100000x128, .f32⟩ : BufTy).Contents (Elt F) → (⟨S100000x128, .f32⟩ : BufTy).Contents (Elt F)),
    unary main_arg7 main_v63 ((transpose S128x2 [1, 0] · transposes_S2x128_S128x2_1_0) : (⟨S2x128, .f32⟩ : BufTy).Contents (Elt F) → (⟨S128x2, .f32⟩ : BufTy).Contents (Elt F)),
    binary main_v62 main_v63 main_v64 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg8 main_v65 (broadcastInDim S1x2 ![1] bcast_S2_S1x2_1 : (⟨S2, .f32⟩ : BufTy).Contents (Elt F) → (⟨S1x2, .f32⟩ : BufTy).Contents (Elt F)),
    unary main_v65 main_v66 (broadcastInDim S100000x2 ![0, 1] bcast_S1x2_S100000x2_0_1 : (⟨S1x2, .f32⟩ : BufTy).Contents (Elt F) → (⟨S100000x2, .f32⟩ : BufTy).Contents (Elt F)),
    binary main_v64 main_v66 main_v67 (addf : (⟨S100000x2, .f32⟩ : BufTy).Contents (Elt F) → (⟨S100000x2, .f32⟩ : BufTy).Contents (Elt F) → (⟨S100000x2, .f32⟩ : BufTy).Contents (Elt F)),
    unary main_arg9 main_v68 ((transpose S128x2 [1, 0] · transposes_S2x128_S128x2_1_0) : (⟨S2x128, .f32⟩ : BufTy).Contents (Elt F) → (⟨S128x2, .f32⟩ : BufTy).Contents (Elt F)),
    binary main_v50 main_v68 main_v69 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v67 main_v69 main_v70 (addf : (⟨S100000x2, .f32⟩ : BufTy).Contents (Elt F) → (⟨S100000x2, .f32⟩ : BufTy).Contents (Elt F) → (⟨S100000x2, .f32⟩ : BufTy).Contents (Elt F)) ]

/-- The last stretch: the two-entry rows normalised by log-softmax. -/
abbrev opsD : List (HloOp τ sig (Elt F)) :=
  [ TRef.nullary (TRef.of (T := ⟨S_, .f32⟩) main_call2_cst) (constant S_ .f32 0xFF800000#32),
    TRef.binary (TRef.of (T := ⟨S100000x2, .f32⟩) main_v70) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v70) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v71) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The list in four stretches -/

/-- Running two stretches one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 8192 in
/-- The 103 operations are the four stretches in order. -/
theorem ops_split : (ops : List (HloOp τ sig (Elt F))) = opsA ++ (opsB ++ (opsC ++ opsD)) := rfl

variable (x0 : (⟨S100000x128, .f32⟩ : BufTy).Contents (Elt F)) (x1 : (⟨S128x128, .f32⟩ : BufTy).Contents (Elt F))
  (x2 : (⟨S128, .f32⟩ : BufTy).Contents (Elt F)) (x3 x4 : (⟨S128x128, .f32⟩ : BufTy).Contents (Elt F))
  (x5 : (⟨S128, .f32⟩ : BufTy).Contents (Elt F)) (x6 : (⟨S128x128, .f32⟩ : BufTy).Contents (Elt F))
  (x7 : (⟨S2x128, .f32⟩ : BufTy).Contents (Elt F)) (x8 : (⟨S2, .f32⟩ : BufTy).Contents (Elt F))
  (x9 : (⟨S2x128, .f32⟩ : BufTy).Contents (Elt F)) (x10 x11 : (⟨S1600000, .i32⟩ : BufTy).Contents (Elt F))

/-! ## Each stretch from any contents -/

/-- The first layer's output from the arguments. -/
theorem winA_v29 (W : Valuation τ sig (Elt F))
    (h0 : W (Proc.devRef .tc main_arg0) = x0) (h1 : W (Proc.devRef .tc main_arg1) = x1) (h2 : W (Proc.devRef .tc main_arg2) = x2)
    (h3 : W (Proc.devRef .tc main_arg3) = x3) (h10 : W (Proc.devRef .tc main_arg10) = x10) (h11 : W (Proc.devRef .tc main_arg11) = x11) :
    after (opsA (F := F)) W (Proc.devRef .tc main_v29) = ReadP.val_main_v29 (F := F) x0 x1 x2 x3 x10 x11 := by
  after_results_simp
  simp only [ofBuf_toBuf, h0, h1, h2, h3, h10, h11]
  rfl

/-- The reciprocal in-degrees, as a column. -/
theorem winA_v8 (W : Valuation τ sig (Elt F)) (h11 : W (Proc.devRef .tc main_arg11) = x11) :
    after (opsA (F := F)) W (Proc.devRef .tc main_v8) = ReadP.val_main_v8 (F := F) x11 := by
  after_results_simp
  simp only [ofBuf_toBuf, h11]
  rfl

/-- The second layer's output from the first's. -/
theorem winB_v50 (W : Valuation τ sig (Elt F))
    (h29 : W (Proc.devRef .tc main_v29) = ReadP.val_main_v29 (F := F) x0 x1 x2 x3 x10 x11)
    (h8 : W (Proc.devRef .tc main_v8) = ReadP.val_main_v8 (F := F) x11)
    (h4 : W (Proc.devRef .tc main_arg4) = x4) (h5 : W (Proc.devRef .tc main_arg5) = x5) (h6 : W (Proc.devRef .tc main_arg6) = x6)
    (h10 : W (Proc.devRef .tc main_arg10) = x10) (h11 : W (Proc.devRef .tc main_arg11) = x11) :
    after (opsB (F := F)) W (Proc.devRef .tc main_v50) = ReadP.val_main_v50 (F := F) x0 x1 x2 x3 x4 x5 x6 x10 x11 := by
  after_results_simp
  simp only [ofBuf_toBuf, h29, h8, h4, h5, h6, h10, h11]
  rfl

/-- The third layer before its normalisation, from the second's output. -/
theorem winC_v70 (W : Valuation τ sig (Elt F))
    (h50 : W (Proc.devRef .tc main_v50) = ReadP.val_main_v50 (F := F) x0 x1 x2 x3 x4 x5 x6 x10 x11)
    (h8 : W (Proc.devRef .tc main_v8) = ReadP.val_main_v8 (F := F) x11)
    (h7 : W (Proc.devRef .tc main_arg7) = x7) (h8' : W (Proc.devRef .tc main_arg8) = x8) (h9 : W (Proc.devRef .tc main_arg9) = x9)
    (h10 : W (Proc.devRef .tc main_arg10) = x10) (h11 : W (Proc.devRef .tc main_arg11) = x11) :
    after (opsC (F := F)) W (Proc.devRef .tc main_v70) = ReadP.val_main_v70 (F := F) x0 x1 x2 x3 x4 x5 x6 x7 x8 x9 x10 x11 := by
  after_results_simp
  simp only [ofBuf_toBuf, h50, h8, h7, h8', h9, h10, h11]
  rfl

/-- The normalised rows from the third layer's. The result buffer is read at the value's own type. -/
theorem winD_v71_cast (W : Valuation τ sig (Elt F))
    (h70 : W (Proc.devRef .tc main_v70) = ReadP.val_main_v70 (F := F) x0 x1 x2 x3 x4 x5 x6 x7 x8 x9 x10 x11) :
    (TRef.of (T := ⟨S100000x2, .f32⟩) main_v71).ofBuf (after (opsD (F := F)) W (Proc.devRef .tc main_v71))
      = ReadP.val_main_v71 (F := F) x0 x1 x2 x3 x4 x5 x6 x7 x8 x9 x10 x11 := by
  have hy : (TRef.of (T := ⟨S100000x2, .f32⟩) main_v70).ofBuf (W (Proc.devRef .tc main_v70))
      = ReadP.val_main_v70 (F := F) x0 x1 x2 x3 x4 x5 x6 x7 x8 x9 x10 x11 := h70
  after_results_simp
  simp only [ofBuf_toBuf, hy]
  rfl

theorem winD_v71 (W : Valuation τ sig (Elt F))
    (h70 : W (Proc.devRef .tc main_v70) = ReadP.val_main_v70 (F := F) x0 x1 x2 x3 x4 x5 x6 x7 x8 x9 x10 x11) :
    after (opsD (F := F)) W (Proc.devRef .tc main_v71) = ReadP.val_main_v71 (F := F) x0 x1 x2 x3 x4 x5 x6 x7 x8 x9 x10 x11 :=
  winD_v71_cast x0 x1 x2 x3 x4 x5 x6 x7 x8 x9 x10 x11 W h70

/-! ## What a stretch leaves alone -/

theorem winA_keep_main_arg4 (W : Valuation τ sig (Elt F)) :
    after (opsA (F := F)) W (Proc.devRef .tc main_arg4) = W (Proc.devRef .tc main_arg4) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg5 (W : Valuation τ sig (Elt F)) :
    after (opsA (F := F)) W (Proc.devRef .tc main_arg5) = W (Proc.devRef .tc main_arg5) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg6 (W : Valuation τ sig (Elt F)) :
    after (opsA (F := F)) W (Proc.devRef .tc main_arg6) = W (Proc.devRef .tc main_arg6) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg7 (W : Valuation τ sig (Elt F)) :
    after (opsA (F := F)) W (Proc.devRef .tc main_arg7) = W (Proc.devRef .tc main_arg7) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg8 (W : Valuation τ sig (Elt F)) :
    after (opsA (F := F)) W (Proc.devRef .tc main_arg8) = W (Proc.devRef .tc main_arg8) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg9 (W : Valuation τ sig (Elt F)) :
    after (opsA (F := F)) W (Proc.devRef .tc main_arg9) = W (Proc.devRef .tc main_arg9) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg10 (W : Valuation τ sig (Elt F)) :
    after (opsA (F := F)) W (Proc.devRef .tc main_arg10) = W (Proc.devRef .tc main_arg10) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winA_keep_main_arg11 (W : Valuation τ sig (Elt F)) :
    after (opsA (F := F)) W (Proc.devRef .tc main_arg11) = W (Proc.devRef .tc main_arg11) :=
  after_of_forall_not_mem _ _ (List.forall_iff_forall_mem.mp (by
    simp only [opsA, List.Forall, nullary_writes, unary_writes, binary_writes, ternary_writes, Finset.mem_singleton]
    repeat' apply And.intro
    all_goals exact devRef_ne_of_ne (by decide)))
theorem winB_keep_main_v8 (W : Valuation τ sig (Elt F)) :
    after (opsB (F := F)) W (Proc.devRef .tc main_v8) = W (Proc.devRef .tc main_v8) :=
  after_of_forall_not_mem _ _ (List.forall_iff_forall_mem.mp (by
    simp only [opsB, List.Forall, nullary_writes, unary_writes, binary_writes, ternary_writes, Finset.mem_singleton]
    repeat' apply And.intro
    all_goals exact devRef_ne_of_ne (by decide)))
theorem winB_keep_main_arg7 (W : Valuation τ sig (Elt F)) :
    after (opsB (F := F)) W (Proc.devRef .tc main_arg7) = W (Proc.devRef .tc main_arg7) :=
  after_of_forall_not_mem _ _ (List.forall_iff_forall_mem.mp (by
    simp only [opsB, List.Forall, nullary_writes, unary_writes, binary_writes, ternary_writes, Finset.mem_singleton]
    repeat' apply And.intro
    all_goals exact devRef_ne_of_ne (by decide)))
theorem winB_keep_main_arg8 (W : Valuation τ sig (Elt F)) :
    after (opsB (F := F)) W (Proc.devRef .tc main_arg8) = W (Proc.devRef .tc main_arg8) :=
  after_of_forall_not_mem _ _ (List.forall_iff_forall_mem.mp (by
    simp only [opsB, List.Forall, nullary_writes, unary_writes, binary_writes, ternary_writes, Finset.mem_singleton]
    repeat' apply And.intro
    all_goals exact devRef_ne_of_ne (by decide)))
theorem winB_keep_main_arg9 (W : Valuation τ sig (Elt F)) :
    after (opsB (F := F)) W (Proc.devRef .tc main_arg9) = W (Proc.devRef .tc main_arg9) :=
  after_of_forall_not_mem _ _ (List.forall_iff_forall_mem.mp (by
    simp only [opsB, List.Forall, nullary_writes, unary_writes, binary_writes, ternary_writes, Finset.mem_singleton]
    repeat' apply And.intro
    all_goals exact devRef_ne_of_ne (by decide)))
theorem winB_keep_main_arg10 (W : Valuation τ sig (Elt F)) :
    after (opsB (F := F)) W (Proc.devRef .tc main_arg10) = W (Proc.devRef .tc main_arg10) :=
  after_of_forall_not_mem _ _ (List.forall_iff_forall_mem.mp (by
    simp only [opsB, List.Forall, nullary_writes, unary_writes, binary_writes, ternary_writes, Finset.mem_singleton]
    repeat' apply And.intro
    all_goals exact devRef_ne_of_ne (by decide)))
theorem winB_keep_main_arg11 (W : Valuation τ sig (Elt F)) :
    after (opsB (F := F)) W (Proc.devRef .tc main_arg11) = W (Proc.devRef .tc main_arg11) :=
  after_of_forall_not_mem _ _ (List.forall_iff_forall_mem.mp (by
    simp only [opsB, List.Forall, nullary_writes, unary_writes, binary_writes, ternary_writes, Finset.mem_singleton]
    repeat' apply And.intro
    all_goals exact devRef_ne_of_ne (by decide)))

/-- No operation writes an argument. -/
theorem ops_keep_main_arg0 (W : Valuation τ sig (Elt F)) :
    after (ops (F := F)) W (Proc.devRef .tc main_arg0) = W (Proc.devRef .tc main_arg0) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg1 (W : Valuation τ sig (Elt F)) :
    after (ops (F := F)) W (Proc.devRef .tc main_arg1) = W (Proc.devRef .tc main_arg1) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg2 (W : Valuation τ sig (Elt F)) :
    after (ops (F := F)) W (Proc.devRef .tc main_arg2) = W (Proc.devRef .tc main_arg2) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg3 (W : Valuation τ sig (Elt F)) :
    after (ops (F := F)) W (Proc.devRef .tc main_arg3) = W (Proc.devRef .tc main_arg3) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg4 (W : Valuation τ sig (Elt F)) :
    after (ops (F := F)) W (Proc.devRef .tc main_arg4) = W (Proc.devRef .tc main_arg4) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg5 (W : Valuation τ sig (Elt F)) :
    after (ops (F := F)) W (Proc.devRef .tc main_arg5) = W (Proc.devRef .tc main_arg5) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg6 (W : Valuation τ sig (Elt F)) :
    after (ops (F := F)) W (Proc.devRef .tc main_arg6) = W (Proc.devRef .tc main_arg6) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg7 (W : Valuation τ sig (Elt F)) :
    after (ops (F := F)) W (Proc.devRef .tc main_arg7) = W (Proc.devRef .tc main_arg7) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg8 (W : Valuation τ sig (Elt F)) :
    after (ops (F := F)) W (Proc.devRef .tc main_arg8) = W (Proc.devRef .tc main_arg8) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg9 (W : Valuation τ sig (Elt F)) :
    after (ops (F := F)) W (Proc.devRef .tc main_arg9) = W (Proc.devRef .tc main_arg9) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg10 (W : Valuation τ sig (Elt F)) :
    after (ops (F := F)) W (Proc.devRef .tc main_arg10) = W (Proc.devRef .tc main_arg10) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))
theorem ops_keep_main_arg11 (W : Valuation τ sig (Elt F)) :
    after (ops (F := F)) W (Proc.devRef .tc main_arg11) = W (Proc.devRef .tc main_arg11) :=
  after_of_forall_not_mem _ _ (List.forall_iff_forall_mem.mp (by
    simp only [ops, List.Forall, nullary_writes, unary_writes, binary_writes, ternary_writes, Finset.mem_singleton]
    repeat' apply And.intro
    all_goals exact devRef_ne_of_ne (by decide)))

/-! ## The result, and the run -/

/-- The result buffer after all the operations: the last stage function of the arguments. -/
theorem v71_eq (m : (ℓ : Loc nD τ sig) → Buf (Elt F) ℓ) (c : Dev nD) :
    after (ops (F := F)) (launchContents m c) (Proc.devRef .tc main_v71)
      = ReadP.val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_split, after_app, after_app, after_app]
  have hA29 := winA_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (launchContents m c) rfl rfl rfl rfl rfl rfl
  have hA8 := winA_v8 (F := F) (m ((c.tc : Thread nD τ).loc main_arg11)) (launchContents m c) rfl
  have hA4 : (after (opsA (F := F)) (launchContents m c)) (Proc.devRef .tc main_arg4) = (m ((c.tc : Thread nD τ).loc main_arg4)) := winA_keep_main_arg4 (launchContents m c)
  have hA5 : (after (opsA (F := F)) (launchContents m c)) (Proc.devRef .tc main_arg5) = (m ((c.tc : Thread nD τ).loc main_arg5)) := winA_keep_main_arg5 (launchContents m c)
  have hA6 : (after (opsA (F := F)) (launchContents m c)) (Proc.devRef .tc main_arg6) = (m ((c.tc : Thread nD τ).loc main_arg6)) := winA_keep_main_arg6 (launchContents m c)
  have hA7 : (after (opsA (F := F)) (launchContents m c)) (Proc.devRef .tc main_arg7) = (m ((c.tc : Thread nD τ).loc main_arg7)) := winA_keep_main_arg7 (launchContents m c)
  have hA8' : (after (opsA (F := F)) (launchContents m c)) (Proc.devRef .tc main_arg8) = (m ((c.tc : Thread nD τ).loc main_arg8)) := winA_keep_main_arg8 (launchContents m c)
  have hA9 : (after (opsA (F := F)) (launchContents m c)) (Proc.devRef .tc main_arg9) = (m ((c.tc : Thread nD τ).loc main_arg9)) := winA_keep_main_arg9 (launchContents m c)
  have hA10 : (after (opsA (F := F)) (launchContents m c)) (Proc.devRef .tc main_arg10) = (m ((c.tc : Thread nD τ).loc main_arg10)) := winA_keep_main_arg10 (launchContents m c)
  have hA11 : (after (opsA (F := F)) (launchContents m c)) (Proc.devRef .tc main_arg11) = (m ((c.tc : Thread nD τ).loc main_arg11)) := winA_keep_main_arg11 (launchContents m c)
  generalize (after (opsA (F := F)) (launchContents m c)) = WA at hA29 hA8 hA4 hA5 hA6 hA7 hA8' hA9 hA10 hA11 ⊢
  have hB50 := winB_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) WA hA29 hA8 hA4 hA5 hA6 hA10 hA11
  have hB8 := (winB_keep_main_v8 (F := F) WA).trans hA8
  have hB7 := (winB_keep_main_arg7 (F := F) WA).trans hA7
  have hB8' := (winB_keep_main_arg8 (F := F) WA).trans hA8'
  have hB9 := (winB_keep_main_arg9 (F := F) WA).trans hA9
  have hB10 := (winB_keep_main_arg10 (F := F) WA).trans hA10
  have hB11 := (winB_keep_main_arg11 (F := F) WA).trans hA11
  generalize after (opsB (F := F)) WA = WB at hB50 hB8 hB7 hB8' hB9 hB10 hB11 ⊢
  have hC70 := winC_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) WB hB50 hB8 hB7 hB8' hB9 hB10 hB11
  generalize after (opsC (F := F)) WB = WC at hC70 ⊢
  exact winD_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) WC hC70

/-- On every device, for any float values, from any memory with zero counters: every weakly fair execution of the
    program terminates with the result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = ReadP.val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v71).trans (v71_eq m c),
      (h c main_arg0).trans (ops_keep_main_arg0 (launchContents m c)),
      (h c main_arg1).trans (ops_keep_main_arg1 (launchContents m c)),
      (h c main_arg2).trans (ops_keep_main_arg2 (launchContents m c)),
      (h c main_arg3).trans (ops_keep_main_arg3 (launchContents m c)),
      (h c main_arg4).trans (ops_keep_main_arg4 (launchContents m c)),
      (h c main_arg5).trans (ops_keep_main_arg5 (launchContents m c)),
      (h c main_arg6).trans (ops_keep_main_arg6 (launchContents m c)),
      (h c main_arg7).trans (ops_keep_main_arg7 (launchContents m c)),
      (h c main_arg8).trans (ops_keep_main_arg8 (launchContents m c)),
      (h c main_arg9).trans (ops_keep_main_arg9 (launchContents m c)),
      (h c main_arg10).trans (ops_keep_main_arg10 (launchContents m c)),
      (h c main_arg11).trans (ops_keep_main_arg11 (launchContents m c))⟩)
    (run_seq scopedRefs_eq scopedSems_eq defs main (fun _ => ops) main_eq (fun _ => ops_sub) m ρ)

end Cert.ReferenceIdeal.RunW

end
-- ==== Proof.lean ====
/-
  A three-layer graph convolution with mean aggregation, as a tiled kernel, against its plain reference, over the
  extended reals.

  Per layer, each node's row is the sum of its in-neighbours' rows scaled by the reciprocal of its in-degree (floored at
  one), multiplied into one weight matrix, plus the node's own row multiplied into a second, plus a bias; the first two
  layers end in a maximum with zero and the last in a row-wise log-softmax over its two columns. The reference does all
  of it with whole-array host operations. The kernel sorts the edges once by destination, gathers and segment-sums on
  the host in that order, and runs each layer's dense part as a launch over twenty tiles of 5000 rows.

  Why the two agree at every entry: the sort's order is a permutation of the edge positions and each destination row's
  sum is a finite sum, which a permutation of its terms does not change; a change of float format is the identity over
  the extended reals; the two programs add the bias in a different place, and addition there is commutative and
  associative; the reference's extra maximum against minus infinity is the identity. No finiteness of the inputs is
  needed for any of this.

  The three frames are the generated ones (the reference's is its run with the result dropped); the idealization
  rewrote nothing, so that conjunct is trivial.
-/
import proofs.«146305_j81870666596807_2_alg».proof.Defs
import proofs.«146305_j81870666596807_2_alg».proof.Proof.Gen.Kernel
import proofs.«146305_j81870666596807_2_alg».proof.Proof.Gen.Kernel.Frame
import proofs.«146305_j81870666596807_2_alg».proof.Proof.Gen.KernelIdeal
import proofs.«146305_j81870666596807_2_alg».proof.Proof.Gen.KernelIdeal.Frame
import proofs.«146305_j81870666596807_2_alg».proof.Proof.Gen.ReferenceIdeal
import proofs.«146305_j81870666596807_2_alg».proof.Proof.Gen.Pre_finite_inputs
import proofs.«146305_j81870666596807_2_alg».proof.Proof.KernelRun
import proofs.«146305_j81870666596807_2_alg».proof.Proof.Layers
import proofs.«146305_j81870666596807_2_alg».proof.Proof.RefRunW
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result's value dropped. -/
theorem frame_referenceIdeal : Cert.frame_ReferenceIdeal := fun m ρ _ =>
  (θ_run Cert.ReferenceIdeal.defs _ _).mono (fun _ h c => (h c).2) (Cert.ReferenceIdeal.RunW.run (F := Ideal) m ρ)

theorem preserves : Cert.preserves_Kernel_KernelIdeal := trivial

/-- Both programs end with the same array: the reference's last stage of the (agreeing) arguments. -/
theorem algebraic : Cert.algebraic_KernelIdeal_ReferenceIdeal := by
  intro m ρ m' ρ' _ hagree
  refine ⟨fun c => Cert.ReferenceIdeal.ReadP.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c => ⟨(h c).1.trans (Cert.Layers.result_eq m ρ c), (h c).2⟩)
      (Cert.KernelIdeal.KRun.run_result m ρ)
  · refine (θ_run Cert.ReferenceIdeal.defs _ _).mono (fun _ h c => ⟨(h c).1.trans ?_, (h c).2⟩) (Cert.ReferenceIdeal.RunW.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
